-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S100000x256 : Shape := ⟨2, ![100000, 256]⟩
abbrev S100000 : Shape := ⟨1, ![100000]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S1024x32 : S_.BroadcastsInDim S1024x32 (![] : Fin 0 → Fin S1024x32.rank)
  reducesTo_S1024x32_S_d0_1 : S1024x32.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S32x256 : S_.BroadcastsInDim S32x256 (![] : Fin 0 → Fin S32x256.rank)
  reducesTo_S32x256_S_d0_1 : S32x256.ReducesTo [0, 1] S_

variable [Facts]

def fn_part3 {F : FTy → Type} [FloatOps F] (main_arg12 : FVec F S32 .f32) (main_v48 : IVec S_ 1) (main_v49 : FVec F S32x256 .f32) (main_v50 : FVec F S32x256 .f32) : IVec S_ 1 :=
  let main_v51 : IVec S32x256 1 := cmpf .olt main_v49 main_v50
  let main_c_19 : IVec S_ 1 := constantI S_ 1 1#1
  let main_v52 : IVec S_ 1 := (fun x v => Host.reduce IntOp.andi x v reducesTo_S32x256_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg8 : FVec F S1024 .f32) (main_arg9 : FVec F S1024x256 .f32) (main_arg10 : FVec F S1024 .f32) (main_arg11 : FVec F S32x256 .f32) (main_arg12 : FVec F S32 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x256 .f32 := Host.absf main_arg9
  let main_cst_14 : FVec F S_ .f32 := constant S_ .f32 0x7F800000#32
  let main_v40 : FVec F S1024x256 .f32 := broadcastInDim S1024x256 ![] bcast_S_S1024x256 main_cst_14
  let main_v41 : IVec S1024x256 1 := cmpf .olt main_v39 main_v40
  let main_c_15 : IVec S_ 1 := constantI S_ 1 1#1
  let main_v42 : IVec S_ 1 := (fun x v => Host.reduce IntOp.andi x v reducesTo_S1024x256_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S32x256 .f32 := Host.absf main_arg11
  let main_cst_18 : FVec F S_ .f32 := constant S_ .f32 0x7F800000#32
  let main_v50 : FVec F S32x256 .f32 := broadcastInDim S32x256 ![] bcast_S_S32x256 main_cst_18
  fn_part3 (F := F) main_arg12 main_v48 main_v49 main_v50

def fn_part1 {F : FTy → Type} [FloatOps F] (main_arg5 : FVec F S32x8 .f32) (main_arg6 : FVec F S32 .f32) (main_arg7 : FVec F S1024x32 .f32) (main_arg8 : FVec F S1024 .f32) (main_arg9 : FVec F S1024x256 .f32) (main_arg10 : FVec F S1024 .f32) (main_arg11 : FVec F S32x256 .f32) (main_arg12 : FVec F S32 .f32) (main_v13 : IVec S_ 1) (main_v16 : IVec S100000x256 1) : IVec S_ 1 :=
  let main_c_5 : IVec S_ 1 := constantI S_ 1 1#1
  let main_v17 : IVec S_ 1 := (fun x v => Host.reduce IntOp.andi x v reducesTo_S100000x256_S_d0_1 h_S_) main_v16 main_c_5
  let main_v18 : IVec S_ 1 := andi main_v13 main_v17
  let main_v19 : FVec F S32x8 .f32 := Host.absf main_arg5
  let main_cst_6 : FVec F S_ .f32 := constant S_ .f32 0x7F800000#32
  let main_v20 : FVec F S32x8 .f32 := broadcastInDim S32x8 ![] bcast_S_S32x8 main_cst_6
  let main_v21 : IVec S32x8 1 := cmpf .olt main_v19 main_v20
  let main_c_7 : IVec S_ 1 := constantI S_ 1 1#1
  let main_v22 : IVec S_ 1 := (fun x v => Host.reduce IntOp.andi x v reducesTo_S32x8_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S1024x32 .f32 := Host.absf main_arg7
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x2 .f32) (main_arg1 : FVec F S100000x2 .f32) (main_arg2 : FVec F S100000x256 .f32) (main_arg3 : FVec F S100000x256 .f32) (main_arg4 : IVec S100000 1) (main_arg5 : FVec F S32x8 .f32) (main_arg6 : FVec F S32 .f32) (main_arg7 : FVec F S1024x32 .f32) (main_arg8 : FVec F S1024 .f32) (main_arg9 : FVec F S1024x256 .f32) (main_arg10 : FVec F S1024 .f32) (main_arg11 : FVec F S32x256 .f32) (main_arg12 : FVec F S32 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S100000x256 .f32 := Host.absf main_arg2
  let main_cst_2 : FVec F S_ .f32 := constant S_ .f32 0x7F800000#32
  let main_v10 : FVec F S100000x256 .f32 := broadcastInDim S100000x256 ![] bcast_S_S100000x256 main_cst_2
  let main_v11 : IVec S100000x256 1 := cmpf .olt main_v9 main_v10
  let main_c_3 : IVec S_ 1 := constantI S_ 1 1#1
  let main_v12 : IVec S_ 1 := (fun x v => Host.reduce IntOp.andi x v reducesTo_S100000x256_S_d0_1 h_S_) main_v11 main_c_3
  let main_v13 : IVec S_ 1 := andi main_v8 main_v12
  let main_v14 : FVec F S100000x256 .f32 := Host.absf main_arg3
  let main_cst_4 : FVec F S_ .f32 := constant S_ .f32 0x7F800000#32
  let main_v15 : FVec F S100000x256 .f32 := broadcastInDim S100000x256 ![] bcast_S_S100000x256 main_cst_4
  let main_v16 : IVec S100000x256 1 := cmpf .olt main_v14 main_v15
  fn_part1 (F := F) main_arg5 main_arg6 main_arg7 main_arg8 main_arg9 main_arg10 main_arg11 main_arg12 main_v13 main_v16
-- ==== Kernel.lean ====
abbrev S100000x2 : Shape := ⟨2, ![100000, 2]⟩
abbrev S100000x256 : Shape := ⟨2, ![100000, 256]⟩
abbrev S100000 : Shape := ⟨1, ![100000]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S100000x4 : Shape := ⟨2, ![100000, 4]⟩
abbrev S_ : Shape := ⟨0, ![]⟩
abbrev S4 : Shape := ⟨1, ![4]⟩
abbrev S1x4 : Shape := ⟨2, ![1, 4]⟩
abbrev S100000x8 : Shape := ⟨2, ![100000, 8]⟩
abbrev S8x32 : Shape := ⟨2, ![8, 32]⟩
abbrev S32x1024 : Shape := ⟨2, ![32, 1024]⟩
abbrev S256x1024 : Shape := ⟨2, ![256, 1024]⟩
abbrev S256x32 : Shape := ⟨2, ![256, 32]⟩
abbrev S1x1024 : Shape := ⟨2, ![1, 1024]⟩
abbrev S1x32 : Shape := ⟨2, ![1, 32]⟩
abbrev S100000x32 : Shape := ⟨2, ![100000, 32]⟩
abbrev S2000x8 : Shape := ⟨2, ![2000, 8]⟩
abbrev S2000x256 : Shape := ⟨2, ![2000, 256]⟩
abbrev S2000x32 : Shape := ⟨2, ![2000, 32]⟩
abbrev S2000x1024 : Shape := ⟨2, ![2000, 1024]⟩

abbrev nBuf : Space → Nat
  | .hbm => 41
  | .vmem => 15
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S100000x256, .f32⟩
  | .hbm, ⟨3, _⟩ => ⟨S100000x256, .f32⟩
  | .hbm, ⟨4, _⟩ => ⟨S100000, .i1⟩
  | .hbm, ⟨5, _⟩ => ⟨S32x8, .f32⟩
  | .hbm, ⟨6, _⟩ => ⟨S32, .f32⟩
  | .hbm, ⟨7, _⟩ => ⟨S1024x32, .f32⟩
  | .hbm, ⟨8, _⟩ => ⟨S1024, .f32⟩
  | .hbm, ⟨9, _⟩ => ⟨S1024x256, .f32⟩
  | .hbm, ⟨10, _⟩ => ⟨S1024, .f32⟩
  | .hbm, ⟨11, _⟩ => ⟨S32x256, .f32⟩
  | .hbm, ⟨12, _⟩ => ⟨S32, .f32⟩
  | .hbm, ⟨13, _⟩ => ⟨S100000x2, .f32⟩
  | .hbm, ⟨14, _⟩ => ⟨S100000x4, .f32⟩
  | .hbm, ⟨15, _⟩ => ⟨S_, .f32⟩
  | .hbm, ⟨16, _⟩ => ⟨S4, .f32⟩
  | .hbm, ⟨17, _⟩ => ⟨S1x4, .f32⟩
  | .hbm, ⟨18, _⟩ => ⟨S100000x4, .f32⟩
  | .hbm, ⟨19, _⟩ => ⟨S100000x4, .f32⟩
  | .hbm, ⟨20, _⟩ => ⟨S100000x8, .f32⟩
  | .hbm, ⟨21, _⟩ => ⟨S8x32, .f32⟩
  | .hbm, ⟨22, _⟩ => ⟨S32x1024, .f32⟩
  | .hbm, ⟨23, _⟩ => ⟨S32x1024, .bf16⟩
  | .hbm, ⟨24, _⟩ => ⟨S256x1024, .f32⟩
  | .hbm, ⟨25, _⟩ => ⟨S256x1024, .bf16⟩
  | .hbm, ⟨26, _⟩ => ⟨S256x32, .f32⟩
  | .hbm, ⟨27, _⟩ => ⟨S256x32, .bf16⟩
  | .hbm, ⟨28, _⟩ => ⟨S1024, .f32⟩
  | .hbm, ⟨29, _⟩ => ⟨S1x1024, .f32⟩
  | .hbm, ⟨30, _⟩ => ⟨S1x32, .f32⟩
  | .hbm, ⟨31, _⟩ => ⟨S1x32, .f32⟩
  | .hbm, ⟨32, _⟩ => ⟨S100000x32, .f32⟩
  | .hbm, ⟨33, _⟩ => ⟨S100000, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .f32⟩
  | .hbm, ⟨39, _⟩ => ⟨S100000x32, .f32⟩
  | .hbm, ⟨40, _⟩ => ⟨S100000x32, .f32⟩
  | .local _ .vmem, ⟨0, _⟩ => ⟨S2000x8, .f32⟩
  | .local _ .vmem, ⟨1, _⟩ => ⟨S2000x8, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S8x32, .f32⟩
  | .local _ .vmem, ⟨7, _⟩ => ⟨S1x32, .f32⟩
  | .local _ .vmem, ⟨8, _⟩ => ⟨S32x1024, .bf16⟩
  | .local _ .vmem, ⟨9, _⟩ => ⟨S256x1024, .bf16⟩
  | .local _ .vmem, ⟨10, _⟩ => ⟨S1x1024, .f32⟩
  | .local _ .vmem, ⟨11, _⟩ => ⟨S256x32, .bf16⟩
  | .local _ .vmem, ⟨12, _⟩ => ⟨S1x32, .f32⟩
  | .local _ .vmem, ⟨13, _⟩ => ⟨S2000x32, .f32⟩
  | .local _ .vmem, ⟨14, _⟩ => ⟨S2000x32, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_c_0 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S100000x2_S100000x2_S100000x4_d1 : Shape.Concatenates [S100000x2, S100000x2] S100000x4 1
  reducesTo_S100000x4_S4_d0 : S100000x4.ReducesTo [0] S4
  h_S_ : 0 < S_.numel
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  concatenates_S100000x4_S100000x4_S100000x8_d1 : Shape.Concatenates [S100000x4, S100000x4] S100000x8 1
  transposes_S32x8_S8x32_1_0 : S32x8.Transposes [1, 0] S8x32
  transposes_S1024x32_S32x1024_1_0 : S1024x32.Transposes [1, 0] S32x1024
  bitsLt_bf16_f32 : FTy.bits .bf16 < FTy.bits .f32
  transposes_S1024x256_S256x1024_1_0 : S1024x256.Transposes [1, 0] S256x1024
  transposes_S32x256_S256x32_1_0 : S32x256.Transposes [1, 0] S256x32
  shapeCasts_S1024_S1x1024 : S1024.ShapeCasts S1x1024
  shapeCasts_S32_S1x32 : S32.ShapeCasts S1x32
  inb_S2000x8_S2000x8_0_0 : ∀ a, (![0, 0] : Fin 2 → Nat) a + S2000x8.size a ≤ S2000x8.size a
  h_S2000x8 : 0 < S2000x8.numel
  shapeCasts_S2000x8_S2000x8 : S2000x8.ShapeCasts S2000x8
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x256_S2000x256_0_0 : ∀ a, (![0, 0] : Fin 2 → Nat) a + S2000x256.size a ≤ S2000x256.size a
  h_S2000x256 : 0 < S2000x256.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  slices_S2000x1024_o0_0_S2000x256 : S2000x1024.Slices ![0, 0] S2000x256
  slices_S2000x1024_o0_256_S2000x256 : S2000x1024.Slices ![0, 256] S2000x256
  slices_S2000x1024_o0_512_S2000x256 : S2000x1024.Slices ![0, 512] S2000x256
  slices_S2000x1024_o0_768_S2000x256 : S2000x1024.Slices ![0, 768] S2000x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S2000x32_S2000x32_0_0 : ∀ a, (![0, 0] : Fin 2 → Nat) a + S2000x32.size a ≤ S2000x32.size a
  h_S2000x32 : 0 < S2000x32.numel
  natLt_1_32 : 1 < 32
  reducesTo_S100000_S_d0 : S100000.ReducesTo [0] S_
  bcast_S_S100000x32 : S_.BroadcastsInDim S100000x32 (![] : Fin 0 → Fin S100000x32.rank)
  dot_S2000x8_S8x32_S2000x32_1_0_0_1_n_n_wf : DotDims.WF S2000x8 S8x32 S2000x32 [1] [0] [0] [1] [] []
  dot_S2000x32_S32x1024_S2000x1024_1_0_0_1_n_n_wf : DotDims.WF S2000x32 S32x1024 S2000x1024 [1] [0] [0] [1] [] []
  dot_S2000x256_S256x1024_S2000x1024_1_0_0_1_n_n_wf : DotDims.WF S2000x256 S256x1024 S2000x1024 [1] [0] [0] [1] [] []
  dot_S2000x256_S256x32_S2000x32_1_0_0_1_n_n_wf : DotDims.WF S2000x256 S256x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S100000x8.size a
  hwx0_0 : ∀ i : grid0.Coords, EltTy.bits .f32 = 32 ∨ (Rect.block (s := S100000x8) S2000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x32.size a ≤ S8x32.size a
  hwx0_3 : ∀ i : grid0.Coords, EltTy.bits .f32 = 32 ∨ (Rect.block (s := S8x32) S8x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1024.size a ≤ S32x1024.size a
  hwx0_5 : ∀ i : grid0.Coords, EltTy.bits .bf16 = 32 ∨ (Rect.block (s := S32x1024) S32x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S256x1024.size a
  hwx0_6 : ∀ i : grid0.Coords, EltTy.bits .bf16 = 32 ∨ (Rect.block (s := S256x1024) S256x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x32.size a ≤ S256x32.size a
  hwx0_8 : ∀ i : grid0.Coords, EltTy.bits .bf16 = 32 ∨ (Rect.block (s := S256x32) S256x32.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x32.size a ≤ S100000x32.size a
  hwx0_10 : ∀ i : grid0.Coords, EltTy.bits .f32 = 32 ∨ (Rect.block (s := S100000x32) S2000x32.size (cc0_transform_10 i) (hinb0_10 i)).WholeWords (EltTy.packing .f32)

variable [Facts₀]

def dot_S2000x8_S8x32_S2000x32_1_0_0_1_n_n : DotDims S2000x8 S8x32 S2000x32 where
  lhsContracting := [1]
  rhsContracting := [0]
  lhsNonContracting := [0]
  rhsNonContracting := [1]
  lhsBatch := []
  rhsBatch := []
  wf := dot_S2000x8_S8x32_S2000x32_1_0_0_1_n_n_wf
def dot_S2000x32_S32x1024_S2000x1024_1_0_0_1_n_n : DotDims S2000x32 S32x1024 S2000x1024 where
  lhsContracting := [1]
  rhsContracting := [0]
  lhsNonContracting := [0]
  rhsNonContracting := [1]
  lhsBatch := []
  rhsBatch := []
  wf := dot_S2000x32_S32x1024_S2000x1024_1_0_0_1_n_n_wf
def dot_S2000x256_S256x1024_S2000x1024_1_0_0_1_n_n : DotDims S2000x256 S256x1024 S2000x1024 where
  lhsContracting := [1]
  rhsContracting := [0]
  lhsNonContracting := [0]
  rhsNonContracting := [1]
  lhsBatch := []
  rhsBatch := []
  wf := dot_S2000x256_S256x1024_S2000x1024_1_0_0_1_n_n_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf

abbrev win0_0 : Pipeline.Window sig grid0 :=
  Pipeline.Window.ofSpec (Memref.whole main_v6) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S32x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S256x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S256x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S2000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x2 : Shape := ⟨2, ![100000, 2]⟩
abbrev S100000x256 : Shape := ⟨2, ![100000, 256]⟩
abbrev S100000 : Shape := ⟨1, ![100000]⟩
abbrev S32x8 : Shape := ⟨2, ![32, 8]⟩
abbrev S32 : Shape := ⟨1, ![32]⟩
abbrev S1024x32 : Shape := ⟨2, ![1024, 32]⟩
abbrev S1024 : Shape := ⟨1, ![1024]⟩
abbrev S1024x256 : Shape := ⟨2, ![1024, 256]⟩
abbrev S32x256 : Shape := ⟨2, ![32, 256]⟩
abbrev S100000x4 : Shape := ⟨2, ![100000, 4]⟩
abbrev S_ : Shape := ⟨0, ![]⟩
abbrev S4 : Shape := ⟨1, ![4]⟩
abbrev S1x4 : Shape := ⟨2, ![1, 4]⟩
abbrev S100000x8 : Shape := ⟨2, ![100000, 8]⟩
abbrev S8x32 : Shape := ⟨2, ![8, 32]⟩
abbrev S100000x32 : Shape := ⟨2, ![100000, 32]⟩
abbrev S1x32 : Shape := ⟨2, ![1, 32]⟩
abbrev S32x1024 : Shape := ⟨2, ![32, 1024]⟩
abbrev S100000x1024 : Shape := ⟨2, ![100000, 1024]⟩
abbrev S1x1024 : Shape := ⟨2, ![1, 1024]⟩
abbrev S256x1024 : Shape := ⟨2, ![256, 1024]⟩
abbrev S256x32 : Shape := ⟨2, ![256, 32]⟩

abbrev nBuf : Space → Nat
  | .hbm => 87
  | .vmem => 0
  | .smem => 0
  | _ => 0

abbrev bufTy : (tb : Table) → Fin (tcTables nBuf tb) → BufTy
  | .hbm, ⟨0, _⟩ => ⟨S100000x2, .f32⟩
  | .hbm, ⟨1, _⟩ => ⟨S100000x2, .f32⟩
  | .hbm, ⟨2, _⟩ => ⟨S100000x256, .f32⟩
  | .hbm, ⟨3, _⟩ => ⟨S100000x256, .f32⟩
  | .hbm, ⟨4, _⟩ => ⟨S100000, .i1⟩
  | .hbm, ⟨5, _⟩ => ⟨S32x8, .f32⟩
  | .hbm, ⟨6, _⟩ => ⟨S32, .f32⟩
  | .hbm, ⟨7, _⟩ => ⟨S1024x32, .f32⟩
  | .hbm, ⟨8, _⟩ => ⟨S1024, .f32⟩
  | .hbm, ⟨9, _⟩ => ⟨S1024x256, .f32⟩
  | .hbm, ⟨10, _⟩ => ⟨S1024, .f32⟩
  | .hbm, ⟨11, _⟩ => ⟨S32x256, .f32⟩
  | .hbm, ⟨12, _⟩ => ⟨S32, .f32⟩
  | .hbm, ⟨13, _⟩ => ⟨S100000x2, .f32⟩
  | .hbm, ⟨14, _⟩ => ⟨S100000x4, .f32⟩
  | .hbm, ⟨15, _⟩ => ⟨S_, .f32⟩
  | .hbm, ⟨16, _⟩ => ⟨S4, .f32⟩
  | .hbm, ⟨17, _⟩ => ⟨S1x4, .f32⟩
  | .hbm, ⟨18, _⟩ => ⟨S100000x4, .f32⟩
  | .hbm, ⟨19, _⟩ => ⟨S100000x4, .f32⟩
  | .hbm, ⟨20, _⟩ => ⟨S100000x8, .f32⟩
  | .hbm, ⟨21, _⟩ => ⟨S8x32, .f32⟩
  | .hbm, ⟨22, _⟩ => ⟨S100000x32, .f32⟩
  | .hbm, ⟨23, _⟩ => ⟨S1x32, .f32⟩
  | .hbm, ⟨24, _⟩ => ⟨S100000x32, .f32⟩
  | .hbm, ⟨25, _⟩ => ⟨S100000x32, .f32⟩
  | .hbm, ⟨26, _⟩ => ⟨S_, .f32⟩
  | .hbm, ⟨27, _⟩ => ⟨S100000x32, .f32⟩
  | .hbm, ⟨28, _⟩ => ⟨S100000x32, .f32⟩
  | .hbm, ⟨29, _⟩ => ⟨S32x1024, .f32⟩
  | .hbm, ⟨30, _⟩ => ⟨S100000x1024, .f32⟩
  | .hbm, ⟨31, _⟩ => ⟨S1x1024, .f32⟩
  | .hbm, ⟨32, _⟩ => ⟨S100000x1024, .f32⟩
  | .hbm, ⟨33, _⟩ => ⟨S100000x1024, .f32⟩
  | .hbm, ⟨34, _⟩ => ⟨S256x1024, .f32⟩
  | .hbm, ⟨35, _⟩ => ⟨S100000x1024, .f32⟩
  | .hbm, ⟨36, _⟩ => ⟨S100000x1024, .f32⟩
  | .hbm, ⟨37, _⟩ => ⟨S1x1024, .f32⟩
  | .hbm, ⟨38, _⟩ => ⟨S100000x1024, .f32⟩
  | .hbm, ⟨39, _⟩ => ⟨S100000x1024, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S100000x256, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S_, .f32⟩
  | .hbm, ⟨50, _⟩ => ⟨S100000x256, .f32⟩
  | .hbm, ⟨51, _⟩ => ⟨S100000x256, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S_, .f32⟩
  | .hbm, ⟨56, _⟩ => ⟨S100000x256, .f32⟩
  | .hbm, ⟨57, _⟩ => ⟨S100000x256, .f32⟩
  | .hbm, ⟨58, _⟩ => ⟨S_, .f32⟩
  | .hbm, ⟨59, _⟩ => ⟨S100000x256, .f32⟩
  | .hbm, ⟨60, _⟩ => ⟨S100000x256, .f32⟩
  | .hbm, ⟨61, _⟩ => ⟨S100000x256, .f32⟩
  | .hbm, ⟨62, _⟩ => ⟨S100000x256, .f32⟩
  | .hbm, ⟨63, _⟩ => ⟨S100000x256, .f32⟩
  | .hbm, ⟨64, _⟩ => ⟨S100000x256, .f32⟩
  | .hbm, ⟨65, _⟩ => ⟨S100000x256, .f32⟩
  | .hbm, ⟨66, _⟩ => ⟨S_, .f32⟩
  | .hbm, ⟨67, _⟩ => ⟨S100000x256, .f32⟩
  | .hbm, ⟨68, _⟩ => ⟨S100000x256, .f32⟩
  | .hbm, ⟨69, _⟩ => ⟨S_, .f32⟩
  | .hbm, ⟨70, _⟩ => ⟨S100000x256, .f32⟩
  | .hbm, ⟨71, _⟩ => ⟨S100000x256, .f32⟩
  | .hbm, ⟨72, _⟩ => ⟨S100000x256, .f32⟩
  | .hbm, ⟨73, _⟩ => ⟨S100000x256, .f32⟩
  | .hbm, ⟨74, _⟩ => ⟨S256x32, .f32⟩
  | .hbm, ⟨75, _⟩ => ⟨S100000x32, .f32⟩
  | .hbm, ⟨76, _⟩ => ⟨S1x32, .f32⟩
  | .hbm, ⟨77, _⟩ => ⟨S100000x32, .f32⟩
  | .hbm, ⟨78, _⟩ => ⟨S100000x32, .f32⟩
  | .hbm, ⟨79, _⟩ => ⟨S100000, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i1⟩
  | .hbm, ⟨84, _⟩ => ⟨S_, .f32⟩
  | .hbm, ⟨85, _⟩ => ⟨S100000x32, .f32⟩
  | .hbm, ⟨86, _⟩ => ⟨S100000x32, .f32⟩
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call0_cst : Ref sig .tc := ⟨.hbm, 26, rfl⟩
abbrev main_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_0 : Ref sig .tc := ⟨.hbm, 46, rfl⟩
abbrev main_v30 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_2 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_4 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c : Ref sig .tc := ⟨.hbm, 80, rfl⟩
abbrev main_v58 : Ref sig .tc := ⟨.hbm, 81, rfl⟩
abbrev main_c_6 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]

class Facts₀ : Prop where
  concatenates_S100000x2_S100000x2_S100000x4_d1 : Shape.Concatenates [S100000x2, S100000x2] S100000x4 1
  reducesTo_S100000x4_S4_d0 : S100000x4.ReducesTo [0] S4
  h_S_ : 0 < S_.numel
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  concatenates_S100000x4_S100000x4_S100000x8_d1 : Shape.Concatenates [S100000x4, S100000x4] S100000x8 1
  transposes_S32x8_S8x32_1_0 : S32x8.Transposes [1, 0] S8x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S1024x32_S32x1024_1_0 : S1024x32.Transposes [1, 0] S32x1024
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  transposes_S1024x256_S256x1024_1_0 : S1024x256.Transposes [1, 0] S256x1024
  slices_S100000x1024_S100000x256_0_0 : S100000x1024.Slices ![0, 0] S100000x256
  slices_S100000x1024_S100000x256_0_256 : S100000x1024.Slices ![0, 256] S100000x256
  slices_S100000x1024_S100000x256_0_512 : S100000x1024.Slices ![0, 512] S100000x256
  slices_S100000x1024_S100000x256_0_768 : S100000x1024.Slices ![0, 768] S100000x256
  bcast_S_S100000x256 : S_.BroadcastsInDim S100000x256 (![] : Fin 0 → Fin S100000x256.rank)
  transposes_S32x256_S256x32_1_0 : S32x256.Transposes [1, 0] S256x32
  natLt_1_32 : 1 < 32
  reducesTo_S100000_S_d0 : S100000.ReducesTo [0] S_
  dot_S100000x8_S8x32_S100000x32_1_0_0_1_n_n_wf : DotDims.WF S100000x8 S8x32 S100000x32 [1] [0] [0] [1] [] []
  dot_S100000x32_S32x1024_S100000x1024_1_0_0_1_n_n_wf : DotDims.WF S100000x32 S32x1024 S100000x1024 [1] [0] [0] [1] [] []
  dot_S100000x256_S256x1024_S100000x1024_1_0_0_1_n_n_wf : DotDims.WF S100000x256 S256x1024 S100000x1024 [1] [0] [0] [1] [] []
  dot_S100000x256_S256x32_S100000x32_1_0_0_1_n_n_wf : DotDims.WF S100000x256 S256x32 S100000x32 [1] [0] [0] [1] [] []

variable [Facts₀]

def dot_S100000x8_S8x32_S100000x32_1_0_0_1_n_n : DotDims S100000x8 S8x32 S100000x32 where
  lhsContracting := [1]
  rhsContracting := [0]
  lhsNonContracting := [0]
  rhsNonContracting := [1]
  lhsBatch := []
  rhsBatch := []
  wf := dot_S100000x8_S8x32_S100000x32_1_0_0_1_n_n_wf
def dot_S100000x32_S32x1024_S100000x1024_1_0_0_1_n_n : DotDims S100000x32 S32x1024 S100000x1024 where
  lhsContracting := [1]
  rhsContracting := [0]
  lhsNonContracting := [0]
  rhsNonContracting := [1]
  lhsBatch := []
  rhsBatch := []
  wf := dot_S100000x32_S32x1024_S100000x1024_1_0_0_1_n_n_wf
def dot_S100000x256_S256x1024_S100000x1024_1_0_0_1_n_n : DotDims S100000x256 S256x1024 S100000x1024 where
  lhsContracting := [1]
  rhsContracting := [0]
  lhsNonContracting := [0]
  rhsNonContracting := [1]
  lhsBatch := []
  rhsBatch := []
  wf := dot_S100000x256_S256x1024_S100000x1024_1_0_0_1_n_n_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf

class Facts : Prop extends Facts₀ where

variable [Facts]
-- ==== Proof.KerPrefix.lean ====
/-
  What the region finds in the arrays that the host lines before it wrote: the transposed weight matrices (a
  change of float format being the identity on the extended reals), the bias vectors laid out as one-row
  matrices, the two gate biases summed, and the neighbour-feature array, each read at an index in terms of the
  program's arguments.  The neighbour features are kept as ONE function of the two observation arrays: the same
  host lines compute them in the program it is compared with, so they are never opened.
-/
import proofs.«116967_j63410897158187_2_alg».proof.Proof.Gen.KernelIdeal.Frame
import Idealize.ShloMosaic.Lib.ValueLayout
import Idealize.ShloMosaic.Lib.ValueIdx
import Idealize.ShloMosaic.Lib.Pipeline.Value
import Idealize.ShloMosaic.Lib.StableHlo.Run

noncomputable section

namespace Cert.Lstm.KerPrefix

open Cert.KernelIdeal Idealize.ShloMosaic Idealize.ShloMosaic.TcCoe Idealize.ShloMosaic.ValueIdx Idealize.SL.Sem
open Idealize.ShloMosaic.StableHlo

variable (m : (ℓ : Loc nD τ sig) → Buf (Elt Ideal) ℓ)

/-! The program's float arguments on core `c`, each at its array type. -/
abbrev a0 (c : Dev nD) : FVec Ideal S100000x2 .f32 := m ((c : Thread nD τ).loc main_arg0)
abbrev a1 (c : Dev nD) : FVec Ideal S100000x2 .f32 := m ((c : Thread nD τ).loc main_arg1)
abbrev a2 (c : Dev nD) : FVec Ideal S100000x256 .f32 := m ((c : Thread nD τ).loc main_arg2)
abbrev a3 (c : Dev nD) : FVec Ideal S100000x256 .f32 := m ((c : Thread nD τ).loc main_arg3)
abbrev a5 (c : Dev nD) : FVec Ideal S32x8 .f32 := m ((c : Thread nD τ).loc main_arg5)
abbrev a6 (c : Dev nD) : FVec Ideal S32 .f32 := m ((c : Thread nD τ).loc main_arg6)
abbrev a7 (c : Dev nD) : FVec Ideal S1024x32 .f32 := m ((c : Thread nD τ).loc main_arg7)
abbrev a8 (c : Dev nD) : FVec Ideal S1024 .f32 := m ((c : Thread nD τ).loc main_arg8)
abbrev a9 (c : Dev nD) : FVec Ideal S1024x256 .f32 := m ((c : Thread nD τ).loc main_arg9)
abbrev a10 (c : Dev nD) : FVec Ideal S1024 .f32 := m ((c : Thread nD τ).loc main_arg10)
abbrev a11 (c : Dev nD) : FVec Ideal S32x256 .f32 := m ((c : Thread nD τ).loc main_arg11)
abbrev a12 (c : Dev nD) : FVec Ideal S32 .f32 := m ((c : Thread nD τ).loc main_arg12)

/-- The observation-derived states `[obs2, obs2 - obs1]`, four columns. -/
def states (a0 a1 : FVec Ideal S100000x2 .f32) : FVec Ideal S100000x4 .f32 :=
  concatenate S100000x4 1 [⟨S100000x2, a1⟩, ⟨S100000x2, subf a1 a0⟩] Facts₀.concatenates_S100000x2_S100000x2_S100000x4_d1

/-- The neighbour features `[states, total - states]`, eight columns, `total` the column sums of the states. -/
def neigh (a0 a1 : FVec Ideal S100000x2 .f32) : FVec Ideal S100000x8 .f32 :=
  concatenate S100000x8 1 [⟨S100000x4, states a0 a1⟩,
    ⟨S100000x4, subf (broadcastInDim S100000x4 ![0, 1] Facts₀.bcast_S1x4_S100000x4_0_1
      (broadcastInDim S1x4 ![1] Facts₀.bcast_S4_S1x4_1
        (Host.reduceAdd (states a0 a1) (constant S_ .f32 0x00000000#32) Facts₀.reducesTo_S100000x4_S4_d0 Facts₀.h_S_)))
      (states a0 a1)⟩] Facts₀.concatenates_S100000x4_S100000x4_S100000x8_d1

theorem V_v6 (c : Dev nD) : (Gen.V m c main_v6 : S100000x8.Idx → EReal)
    = neigh (a0 m c) (a1 m c) := by
  show StableHlo.after Gen.hostOps0 (fun b => m (c, b)) (Proc.devRef .tc main_v6) = _
  after_results
  rfl

/-- The embedding matrix as the region finds it is the argument transposed. -/
theorem V_v7_apply (c : Dev nD) (l : Fin 8) (k : Fin 32) :
    (Gen.V m c main_v7 : S8x32.Idx → EReal) (ix2 l k) = (a5 m c) (ix2 k l) := by
  have e : (Gen.V m c main_v7 : S8x32.Idx → EReal)
      = transpose S8x32 [1, 0] (a5 m c) Facts₀.transposes_S32x8_S8x32_1_0 := by
    show StableHlo.after Gen.hostOps0 (fun b => m (c, b)) (Proc.devRef .tc main_v7) = _
    after_results <;> rfl
  rw [e]
  exact transpose_ix2_apply _ _ l k

/-- The input weights as the region finds them are the argument transposed. -/
theorem V_v9_apply (c : Dev nD) (k : Fin 32) (n : Fin 1024) :
    (Gen.V m c main_v9 : S32x1024.Idx → EReal) (ix2 k n) = (a7 m c) (ix2 n k) := by
  have e : (Gen.V m c main_v9 : S32x1024.Idx → EReal)
      = transpose S32x1024 [1, 0] (a7 m c) Facts₀.transposes_S1024x32_S32x1024_1_0 := by
    show StableHlo.after Gen.hostOps0 (fun b => m (c, b)) (Proc.devRef .tc main_v9) = _
    after_results <;> rfl
  rw [e]
  exact transpose_ix2_apply _ _ k n

/-- The recurrent weights as the region finds them are the argument transposed. -/
theorem V_v11_apply (c : Dev nD) (k : Fin 256) (n : Fin 1024) :
    (Gen.V m c main_v11 : S256x1024.Idx → EReal) (ix2 k n) = (a9 m c) (ix2 n k) := by
  have e : (Gen.V m c main_v11 : S256x1024.Idx → EReal)
      = transpose S256x1024 [1, 0] (a9 m c) Facts₀.transposes_S1024x256_S256x1024_1_0 := by
    show StableHlo.after Gen.hostOps0 (fun b => m (c, b)) (Proc.devRef .tc main_v11) = _
    after_results <;> rfl
  rw [e]
  exact transpose_ix2_apply _ _ k n

/-- The read-out weights as the region finds them are the argument transposed. -/
theorem V_v13_apply (c : Dev nD) (k : Fin 256) (q : Fin 32) :
    (Gen.V m c main_v13 : S256x32.Idx → EReal) (ix2 k q) = (a11 m c) (ix2 q k) := by
  have e : (Gen.V m c main_v13 : S256x32.Idx → EReal)
      = transpose S256x32 [1, 0] (a11 m c) Facts₀.transposes_S32x256_S256x32_1_0 := by
    show StableHlo.after Gen.hostOps0 (fun b => m (c, b)) (Proc.devRef .tc main_v13) = _
    after_results <;> rfl
  rw [e]
  exact transpose_ix2_apply _ _ k q

/-- The embedding bias as the region finds it is the argument laid out as one row. -/
theorem V_v16_apply (c : Dev nD) (k : Fin 32) :
    (Gen.V m c main_v16 : S1x32.Idx → EReal) (ix2 (0 : Fin 1) k) = (a6 m c) (ix1 k) := by
  have e : (Gen.V m c main_v16 : S1x32.Idx → EReal)
      = shapeCast S1x32 (a6 m c) Facts₀.shapeCasts_S32_S1x32 := by
    show StableHlo.after Gen.hostOps0 (fun b => m (c, b)) (Proc.devRef .tc main_v16) = _
    after_results <;> rfl
  rw [e]
  exact shapeCast_a_1a_apply _ _ (0 : Fin 1) k

/-- The read-out bias as the region finds it is the argument laid out as one row. -/
theorem V_v17_apply (c : Dev nD) (q : Fin 32) :
    (Gen.V m c main_v17 : S1x32.Idx → EReal) (ix2 (0 : Fin 1) q) = (a12 m c) (ix1 q) := by
  have e : (Gen.V m c main_v17 : S1x32.Idx → EReal)
      = shapeCast S1x32 (a12 m c) Facts₀.shapeCasts_S32_S1x32 := by
    show StableHlo.after Gen.hostOps0 (fun b => m (c, b)) (Proc.devRef .tc main_v17) = _
    after_results <;> rfl
  rw [e]
  exact shapeCast_a_1a_apply _ _ (0 : Fin 1) q

/-- The gate bias as the region finds it is the sum of the two bias arguments, laid out as one row. -/
theorem V_v15_apply (c : Dev nD) (n : Fin 1024) :
    (Gen.V m c main_v15 : S1x1024.Idx → EReal) (ix2 (0 : Fin 1) n)
      = (a8 m c) (ix1 n) + (a10 m c) (ix1 n) := by
  have e : (Gen.V m c main_v15 : S1x1024.Idx → EReal)
      = shapeCast S1x1024 (addf (a8 m c) (a10 m c))
          Facts₀.shapeCasts_S1024_S1x1024 := by
    show StableHlo.after Gen.hostOps0 (fun b => m (c, b)) (Proc.devRef .tc main_v15) = _
    after_results <;> rfl
  rw [e]
  exact shapeCast_a_1a_apply _ _ (0 : Fin 1) n

end Cert.Lstm.KerPrefix

end
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.Cell.lean ====
/-
  One row of an LSTM cell step with a linear embedding in front and a linear read-out behind, over the extended
  reals.  A row of eight features is embedded (a linear map, a bias, a rectifier); the four gate pre-activations
  are linear in the embedding and in the previous hidden row, plus a bias; the new cell and hidden rows are the
  usual sigmoid / tanh combination; the read-out is linear in the new hidden row, plus a bias.

  Two groupings of the gate sum occur: (e·Wi + h·Wh) + (bi + bh), and ((e·Wi + bi) + h·Wh) + bh.  They agree on
  the extended reals because addition there is commutative and associative (no cancellation is involved, so
  infinite entries do no harm).
-/
import Idealize.ShloMosaic.PureOps.Ideal
import Idealize.ShloMosaic.PureOps.Ideal.Laws

noncomputable section

open Idealize.ShloMosaic
open scoped BigOperators

namespace Cert.Lstm

/-- The embedding of one row: `max (ng · We + be) 0`, coordinate by coordinate. -/
def emb (ng : Fin 8 → EReal) (we : Fin 8 → Fin 32 → EReal) (be : Fin 32 → EReal) (k : Fin 32) : EReal :=
  max ((∑ l : Fin 8, ng l * we l k) + be k) 0

/-- The 1024 gate pre-activations of one row: `(e · Wi + h · Wh) + b`. -/
def gate (e : Fin 32 → EReal) (h : Fin 256 → EReal) (wi : Fin 32 → Fin 1024 → EReal)
    (wh : Fin 256 → Fin 1024 → EReal) (b : Fin 1024 → EReal) (n : Fin 1024) : EReal :=
  ((∑ k : Fin 32, e k * wi k n) + ∑ k : Fin 256, h k * wh k n) + b n

/-- Column `o + k` of a gate row, for the quarter that starts at `o`. -/
def col (o : Nat) (ho : o + 256 ≤ 1024) (k : Fin 256) : Fin 1024 := ⟨o + k.val, by have := k.isLt; omega⟩

/-- The new hidden row from the gate row and the previous cell row (gate order: input, forget, cell, output). -/
def hid (g : Fin 1024 → EReal) (c : Fin 256 → EReal) (k : Fin 256) : EReal :=
  Ideal.logistic (g (col 768 (by norm_num) k))
    * Ideal.tanh (Ideal.logistic (g (col 256 (by norm_num) k)) * c k
        + Ideal.logistic (g (col 0 (by norm_num) k)) * Ideal.tanh (g (col 512 (by norm_num) k)))

/-- The read-out of one row: `hn · Wo + bo`. -/
def out (hn : Fin 256 → EReal) (wo : Fin 256 → Fin 32 → EReal) (bo : Fin 32 → EReal) (q : Fin 32) : EReal :=
  (∑ k : Fin 256, hn k * wo k q) + bo q

/-- The whole step for one row. -/
def cell (ng : Fin 8 → EReal) (h c : Fin 256 → EReal) (we : Fin 8 → Fin 32 → EReal) (be : Fin 32 → EReal)
    (wi : Fin 32 → Fin 1024 → EReal) (wh : Fin 256 → Fin 1024 → EReal) (b : Fin 1024 → EReal)
    (wo : Fin 256 → Fin 32 → EReal) (bo : Fin 32 → EReal) (q : Fin 32) : EReal :=
  out (hid (gate (emb ng we be) h wi wh b) c) wo bo q

/-- The step for row `r` of whole arrays, with the weight matrices as the program receives them (one row per
    output coordinate) and the two gate biases separate: the matrices enter transposed and the biases summed. -/
def rowOut (ng : Fin 100000 → Fin 8 → EReal) (h c : Fin 100000 → Fin 256 → EReal)
    (wemb : Fin 32 → Fin 8 → EReal) (bemb : Fin 32 → EReal) (wih : Fin 1024 → Fin 32 → EReal) (bih : Fin 1024 → EReal)
    (whh : Fin 1024 → Fin 256 → EReal) (bhh : Fin 1024 → EReal) (wout : Fin 32 → Fin 256 → EReal) (bout : Fin 32 → EReal)
    (r : Fin 100000) (q : Fin 32) : EReal :=
  cell (ng r) (h r) (c r) (fun l k => wemb k l) bemb (fun k n => wih n k) (fun k n => whh n k)
    (fun n => bih n + bhh n) (fun k q => wout q k) bout q

/-- The step at equal data is equal. -/
theorem cell_congr {ng ng' : Fin 8 → EReal} {h h' c c' : Fin 256 → EReal} {we we' : Fin 8 → Fin 32 → EReal}
    {be be' : Fin 32 → EReal} {wi wi' : Fin 32 → Fin 1024 → EReal} {wh wh' : Fin 256 → Fin 1024 → EReal}
    {b b' : Fin 1024 → EReal} {wo wo' : Fin 256 → Fin 32 → EReal} {bo bo' : Fin 32 → EReal} {q q' : Fin 32}
    (e0 : ng = ng') (e1 : h = h') (e2 : c = c') (e3 : we = we') (e4 : be = be') (e5 : wi = wi') (e6 : wh = wh')
    (e7 : b = b') (e8 : wo = wo') (e9 : bo = bo') (eq : q = q') :
    cell ng h c we be wi wh b wo bo q = cell ng' h' c' we' be' wi' wh' b' wo' bo' q' := by
  subst e0 e1 e2 e3 e4 e5 e6 e7 e8 e9 eq
  rfl

/-- The two groupings of the gate sum agree: `((A + bi) + B) + bh = (A + B) + (bi + bh)`. -/
theorem gate_regroup (e : Fin 32 → EReal) (h : Fin 256 → EReal) (wi : Fin 32 → Fin 1024 → EReal)
    (wh : Fin 256 → Fin 1024 → EReal) (bi bh : Fin 1024 → EReal) (n : Fin 1024) :
    (((∑ k : Fin 32, e k * wi k n) + bi n) + ∑ k : Fin 256, h k * wh k n) + bh n
      = gate e h wi wh (fun n => bi n + bh n) n := by
  unfold gate
  rw [add_right_comm (∑ k : Fin 32, e k * wi k n) (bi n), add_assoc]

/-- The f32 pattern of one is the real number one. -/
theorem ofBits_one_f32 : Ideal.ofBits .f32 0x3F800000#32 = 1 := by
  simp [Ideal.ofBits, Ideal.ieee, -EReal.coe_mul]
  norm_num

/-- The sigmoid spelt with a negation, an exponential, a sum and a quotient is the sigmoid. -/
theorem logistic_spelt (x : EReal) :
    Ideal.div (Ideal.ofBits .f32 0x3F800000#32) (Ideal.ofBits .f32 0x3F800000#32 + Ideal.exp (-x)) = Ideal.logistic x := by
  rw [ofBits_one_f32]; rfl

end Cert.Lstm

end
-- ==== Proof.KerCell.lean ====
/-
  The kernel body's arithmetic, read one row at a time.  The body computes, from a block of 2000 rows of the
  neighbour features, of the previous hidden state and of the previous cell state, and from the whole weight
  matrices (already transposed), the block of 2000 read-out rows.  Row p of the result depends on row p of each
  row block only, and is the LSTM step of Cell.lean applied to those rows: each matrix product into a zero
  accumulator is a plain sum over the contracted coordinate, a bias row is repeated down the block, the four
  gates are the four quarters of the 1024 gate columns, and a change of float format is the identity on the
  extended reals.
-/
import proofs.«116967_j63410897158187_2_alg».proof.Proof.Gen.KernelIdeal.Skeleton
import proofs.«116967_j63410897158187_2_alg».proof.Proof.LibMatmul
import proofs.«116967_j63410897158187_2_alg».proof.Proof.Cell
import Idealize.ShloMosaic.Lib.ValueLayout
import Idealize.ShloMosaic.Lib.ValueIdx
import Idealize.ShloMosaic.Lib.Pipeline.Value

noncomputable section

namespace Cert.Lstm.Ker

open Cert.KernelIdeal Idealize.ShloMosaic Idealize.ShloMosaic.ValueIdx
open scoped BigOperators

variable [Cert.KernelIdeal.Facts]
open Cert.KernelIdeal.Facts₀

/-- The embedding block: the feature block times the embedding matrix, plus the bias row, rectified. -/
def kEmb (x0 : Vec Ideal S2000x8 .f32) (x3 : Vec Ideal S8x32 .f32) (x4 : Vec Ideal S1x32 .f32) : FVec Ideal S2000x32 .f32 :=
  maximumf (addf (matmul dot_S2000x8_S8x32_S2000x32_1_0_0_1_n_n none
      (shapeCast S2000x8 x0 shapeCasts_S2000x8_S2000x8 : FVec Ideal S2000x8 .f32)
      (shapeCast S8x32 x3 shapeCasts_S8x32_S8x32 : FVec Ideal S8x32 .f32) (constant S2000x32 .f32 0x00000000#32))
    (broadcastTo S2000x32 (shapeCast S1x32 x4 shapeCasts_S1x32_S1x32 : FVec Ideal S1x32 .f32) broadcasts_S1x32_S2000x32))
    (broadcast S2000x32 (Scalar.ofBits .f32 0x00000000#32 : Ideal .f32))

/-- Row p of the embedding block is the embedding of row p of the feature block. -/
theorem kEmb_row (x0 : Vec Ideal S2000x8 .f32) (x3 : Vec Ideal S8x32 .f32) (x4 : Vec Ideal S1x32 .f32) (p : Fin 2000) :
    (fun k : Fin 32 => kEmb x0 x3 x4 (ix2 p k))
      = emb (fun l => x0 (ix2 p l)) (fun l k => x3 (ix2 l k)) (fun k => x4 (ix2 (0 : Fin 1) k)) := by
  funext k
  unfold kEmb emb
  rw [shapeCast_self, shapeCast_self, shapeCast_self, maximumf_apply, addf_apply, broadcast_apply,
    broadcastTo_1b_ab_apply]
  refine congrArg₂ max (congrArg₂ (· + ·) ?_ rfl) Ideal.ofBits_zero_f32
  exact MatmulRead.matmul_zero_apply _ _ _ _ _ _ rfl rfl rfl rfl rfl rfl _ none x0 x3 (ix2 p k)

/-- The gate block: the embedding block times the input weights, plus the hidden block times the recurrent
    weights, plus the (already summed) bias row. -/
def kGate (e : FVec Ideal S2000x32 .f32) (x1 : Vec Ideal S2000x256 .f32) (x5 : Vec Ideal S32x1024 .bf16)
    (x6 : Vec Ideal S256x1024 .bf16) (x7 : Vec Ideal S1x1024 .f32) : FVec Ideal S2000x1024 .f32 :=
  addf (addf (matmul dot_S2000x32_S32x1024_S2000x1024_1_0_0_1_n_n none
        (truncf .bf16 e bitsLt_bf16_f32 : FVec Ideal S2000x32 .bf16)
        (shapeCast S32x1024 x5 shapeCasts_S32x1024_S32x1024 : FVec Ideal S32x1024 .bf16) (constant S2000x1024 .f32 0x00000000#32))
      (matmul dot_S2000x256_S256x1024_S2000x1024_1_0_0_1_n_n none
        (truncf .bf16 (x1 : FVec Ideal S2000x256 .f32) bitsLt_bf16_f32 : FVec Ideal S2000x256 .bf16)
        (shapeCast S256x1024 x6 shapeCasts_S256x1024_S256x1024 : FVec Ideal S256x1024 .bf16) (constant S2000x1024 .f32 0x00000000#32)))
    (broadcastTo S2000x1024 (shapeCast S1x1024 x7 shapeCasts_S1x1024_S1x1024 : FVec Ideal S1x1024 .f32) broadcasts_S1x1024_S2000x1024)

/-- Row p of the gate block is the gate row of row p of the embedding and hidden blocks. -/
theorem kGate_row (e : FVec Ideal S2000x32 .f32) (x1 : Vec Ideal S2000x256 .f32) (x5 : Vec Ideal S32x1024 .bf16)
    (x6 : Vec Ideal S256x1024 .bf16) (x7 : Vec Ideal S1x1024 .f32) (p : Fin 2000) :
    (fun n : Fin 1024 => kGate e x1 x5 x6 x7 (ix2 p n))
      = gate (fun k => e (ix2 p k)) (fun k => x1 (ix2 p k)) (fun k n => x5 (ix2 k n)) (fun k n => x6 (ix2 k n))
          (fun n => x7 (ix2 (0 : Fin 1) n)) := by
  funext n
  unfold kGate gate
  rw [shapeCast_self, shapeCast_self, shapeCast_self, addf_apply, addf_apply, broadcastTo_1b_ab_apply]
  refine congrArg₂ (· + ·) (congrArg₂ (· + ·) ?_ ?_) rfl
  · exact MatmulRead.matmul_zero_apply _ _ _ _ _ _ rfl rfl rfl rfl rfl rfl _ none
      (truncf .bf16 e bitsLt_bf16_f32 : FVec Ideal S2000x32 .bf16) (x5 : FVec Ideal S32x1024 .bf16) (ix2 p n)
  · exact MatmulRead.matmul_zero_apply _ _ _ _ _ _ rfl rfl rfl rfl rfl rfl _ none
      (truncf .bf16 (x1 : FVec Ideal S2000x256 .f32) bitsLt_bf16_f32 : FVec Ideal S2000x256 .bf16) (x6 : FVec Ideal S256x1024 .bf16) (ix2 p n)

/-- The new hidden block from the gate block's four quarters and the cell block. -/
def kHid (g : FVec Ideal S2000x1024 .f32) (x2 : Vec Ideal S2000x256 .f32) : FVec Ideal S2000x256 .f32 :=
  mulf (logistic (extractStridedSlice S2000x256 ![0, 768] g slices_S2000x1024_o0_768_S2000x256 : FVec Ideal S2000x256 .f32))
    (tanh (addf
      (mulf (logistic (extractStridedSlice S2000x256 ![0, 256] g slices_S2000x1024_o0_256_S2000x256 : FVec Ideal S2000x256 .f32))
        (x2 : FVec Ideal S2000x256 .f32))
      (mulf (logistic (extractStridedSlice S2000x256 ![0, 0] g slices_S2000x1024_o0_0_S2000x256 : FVec Ideal S2000x256 .f32))
        (tanh (extractStridedSlice S2000x256 ![0, 512] g slices_S2000x1024_o0_512_S2000x256 : FVec Ideal S2000x256 .f32)))))

/-- Row p of the new hidden block is the hidden row of row p of the gate and cell blocks. -/
theorem kHid_row (g : FVec Ideal S2000x1024 .f32) (x2 : Vec Ideal S2000x256 .f32) (p : Fin 2000) :
    (fun k : Fin 256 => kHid g x2 (ix2 p k)) = hid (fun n => g (ix2 p n)) (fun k => x2 (ix2 p k)) := by
  funext k
  have e768 := slice2_axis1_apply 768 g slices_S2000x1024_o0_768_S2000x256 p k (col 768 (by norm_num) k) rfl
  have e256 := slice2_axis1_apply 256 g slices_S2000x1024_o0_256_S2000x256 p k (col 256 (by norm_num) k) rfl
  have e0 := slice2_axis1_apply 0 g slices_S2000x1024_o0_0_S2000x256 p k (col 0 (by norm_num) k) rfl
  have e512 := slice2_axis1_apply 512 g slices_S2000x1024_o0_512_S2000x256 p k (col 512 (by norm_num) k) rfl
  exact congrArg₂ (· * ·) (congrArg Ideal.logistic e768)
    (congrArg Ideal.tanh (congrArg₂ (· + ·) (congrArg₂ (· * ·) (congrArg Ideal.logistic e256) rfl)
      (congrArg₂ (· * ·) (congrArg Ideal.logistic e0) (congrArg Ideal.tanh e512))))

/-- The read-out block: the new hidden block times the read-out weights, plus the bias row. -/
def kOut (hn : FVec Ideal S2000x256 .f32) (x8 : Vec Ideal S256x32 .bf16) (x9 : Vec Ideal S1x32 .f32) : FVec Ideal S2000x32 .f32 :=
  addf (matmul dot_S2000x256_S256x32_S2000x32_1_0_0_1_n_n none
      (truncf .bf16 hn bitsLt_bf16_f32 : FVec Ideal S2000x256 .bf16)
      (shapeCast S256x32 x8 shapeCasts_S256x32_S256x32 : FVec Ideal S256x32 .bf16) (constant S2000x32 .f32 0x00000000#32))
    (broadcastTo S2000x32 (shapeCast S1x32 x9 shapeCasts_S1x32_S1x32 : FVec Ideal S1x32 .f32) broadcasts_S1x32_S2000x32)

/-- Entry (p, q) of the read-out block is the read-out of row p of the new hidden block. -/
theorem kOut_apply (hn : FVec Ideal S2000x256 .f32) (x8 : Vec Ideal S256x32 .bf16) (x9 : Vec Ideal S1x32 .f32)
    (p : Fin 2000) (q : Fin 32) :
    kOut hn x8 x9 (ix2 p q) = out (fun k => hn (ix2 p k)) (fun k q => x8 (ix2 k q)) (fun q => x9 (ix2 (0 : Fin 1) q)) q := by
  unfold kOut out
  rw [shapeCast_self, shapeCast_self, addf_apply, broadcastTo_1b_ab_apply]
  refine congrArg₂ (· + ·) ?_ rfl
  exact MatmulRead.matmul_zero_apply _ _ _ _ _ _ rfl rfl rfl rfl rfl rfl _ none
    (truncf .bf16 hn bitsLt_bf16_f32 : FVec Ideal S2000x256 .bf16) (x8 : FVec Ideal S256x32 .bf16) (ix2 p q)

/-- The body's first payload (the new hidden block) is the composition of the three blocks above. -/
theorem pay2_eq (x0 : Vec Ideal S2000x8 .f32) (x3 : Vec Ideal S8x32 .f32) (x4 : Vec Ideal S1x32 .f32)
    (x1 : Vec Ideal S2000x256 .f32) (x5 : Vec Ideal S32x1024 .bf16) (x6 : Vec Ideal S256x1024 .bf16)
    (x7 : Vec Ideal S1x1024 .f32) (x2 : Vec Ideal S2000x256 .f32) :
    Gen.k0_pay2 (F := Ideal) x0 x3 x4 x1 x5 x6 x7 x2 = kHid (kGate (kEmb x0 x3 x4) x1 x5 x6 x7) x2 := rfl

/-- The body's stored payload is the read-out block of the new hidden block. -/
theorem pay1_eq (v38 : FVec Ideal S2000x256 .f32) (x8 : Vec Ideal S256x32 .bf16) (x9 : Vec Ideal S1x32 .f32) :
    Gen.k0_pay1 (F := Ideal) v38 x8 x9 = kOut v38 x8 x9 := rfl

/-- Entry (p, q) of what the body stores is the LSTM step of row p of the three row blocks, at q. -/
theorem pay_cell (x0 : Vec Ideal S2000x8 .f32) (x1 x2 : Vec Ideal S2000x256 .f32) (x3 : Vec Ideal S8x32 .f32)
    (x4 : Vec Ideal S1x32 .f32) (x5 : Vec Ideal S32x1024 .bf16) (x6 : Vec Ideal S256x1024 .bf16)
    (x7 : Vec Ideal S1x1024 .f32) (x8 : Vec Ideal S256x32 .bf16) (x9 : Vec Ideal S1x32 .f32)
    (p : Fin 2000) (q : Fin 32) :
    Gen.k0_pay1 (F := Ideal) (Gen.k0_pay2 (F := Ideal) x0 x3 x4 x1 x5 x6 x7 x2) x8 x9 (ix2 p q)
      = cell (fun l => x0 (ix2 p l)) (fun k => x1 (ix2 p k)) (fun k => x2 (ix2 p k)) (fun l k => x3 (ix2 l k))
          (fun k => x4 (ix2 (0 : Fin 1) k)) (fun k n => x5 (ix2 k n)) (fun k n => x6 (ix2 k n))
          (fun n => x7 (ix2 (0 : Fin 1) n)) (fun k q => x8 (ix2 k q)) (fun q => x9 (ix2 (0 : Fin 1) q)) q := by
  rw [pay1_eq, pay2_eq, kOut_apply, kHid_row, kGate_row, kEmb_row]
  rfl

end Cert.Lstm.Ker

end
-- ==== Proof.KerArray.lean ====
/-
  From the blocks to the whole array.  The grid has 50 points; at point t the row-blocked operands (the
  neighbour features, the hidden state, the cell state) and the result are at rows 2000·t … 2000·t + 1999, and
  every weight operand is its whole array at every point.  So what point t writes back is the block, at those
  rows, of ONE function of the program's arguments — the LSTM step of Cell.lean row by row — and, the 50 blocks
  tiling the 100000 rows, the result array ends holding that function.
-/
import proofs.«116967_j63410897158187_2_alg».proof.Proof.KerPrefix
import proofs.«116967_j63410897158187_2_alg».proof.Proof.KerCell
import Idealize.ShloMosaic.Lib.Pipeline.Value

noncomputable section

namespace Cert.Lstm.KerArr

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Lstm Cert.Lstm.KerPrefix

variable (m : (ℓ : Loc nD τ sig) → Buf (Elt Ideal) ℓ)

theorem hz : (![0, 0] : Fin 2 → Nat) = fun _ => 0 := funext fun a => by fin_cases a <;> rfl

/-! ## The printed index maps, decided once over the 50 grid points -/

theorem idx0 : ∀ t : Fin cfg0.N, win0_0.index t (0 : Fin 2) = win0_10.index t (0 : Fin 2) ∧ win0_0.index t (1 : Fin 2) = 0 :=
  (by decide +kernel : ∀ t : Fin grid0.N, win0_0.index t (0 : Fin 2) = win0_10.index t (0 : Fin 2) ∧ win0_0.index t (1 : Fin 2) = 0)
theorem idx1 : ∀ t : Fin cfg0.N, win0_1.index t (0 : Fin 2) = win0_10.index t (0 : Fin 2) ∧ win0_1.index t (1 : Fin 2) = 0 :=
  (by decide +kernel : ∀ t : Fin grid0.N, win0_1.index t (0 : Fin 2) = win0_10.index t (0 : Fin 2) ∧ win0_1.index t (1 : Fin 2) = 0)
theorem idx2 : ∀ t : Fin cfg0.N, win0_2.index t (0 : Fin 2) = win0_10.index t (0 : Fin 2) ∧ win0_2.index t (1 : Fin 2) = 0 :=
  (by decide +kernel : ∀ t : Fin grid0.N, win0_2.index t (0 : Fin 2) = win0_10.index t (0 : Fin 2) ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (1 : Fin 2) = 0 ∧ win0_10.index t (0 : Fin 2) ≤ 49 :=
  (by decide +kernel : ∀ t : Fin grid0.N, win0_10.index t (1 : Fin 2) = 0 ∧ win0_10.index t (0 : Fin 2) ≤ 49)
/-- Every block of rows is some point's. -/
theorem idx_onto : ∀ b : Fin 50, ∃ t : Fin cfg0.N, win0_10.index t (0 : Fin 2) = b.val :=
  (by decide +kernel : ∀ b : Fin 50, ∃ t : Fin grid0.N, win0_10.index t (0 : Fin 2) = b.val)

/-- The array row that row `p` of point `t`'s blocks is. -/
def row (t : Fin cfg0.N) (p : Fin 2000) : Fin 100000 :=
  ⟨win0_10.index t (0 : Fin 2) * 2000 + p.val, by have h := (idx10 t).2; have := p.isLt; omega⟩

/-! ## Where each block's entries sit in its array -/

theorem emb10 (t : Fin cfg0.N) (p : Fin 2000) (q : Fin 32) :
    ((cfg0.win 10).blk t).view.emb (ix2 p q) = ix2 (row t p) q := by
  obtain ⟨e1, _⟩ := idx10 t
  funext a; apply Fin.ext
  match a with
  | ⟨0, _⟩ => show win0_10.index t (0 : Fin 2) * 2000 + 1 * p.val = win0_10.index t (0 : Fin 2) * 2000 + p.val; omega
  | ⟨1, _⟩ => show win0_10.index t (1 : Fin 2) * 32 + 1 * q.val = q.val; omega
theorem emb0 (t : Fin cfg0.N) (p : Fin 2000) (l : Fin 8) :
    ((cfg0.win 0).blk t).view.emb (ix2 p l) = ix2 (row t p) l := by
  obtain ⟨e0, e1⟩ := idx0 t
  funext a; apply Fin.ext
  match a with
  | ⟨0, _⟩ => show win0_0.index t (0 : Fin 2) * 2000 + 1 * p.val = win0_10.index t (0 : Fin 2) * 2000 + p.val; omega
  | ⟨1, _⟩ => show win0_0.index t (1 : Fin 2) * 8 + 1 * l.val = l.val; omega
theorem emb1 (t : Fin cfg0.N) (p : Fin 2000) (k : Fin 256) :
    ((cfg0.win 1).blk t).view.emb (ix2 p k) = ix2 (row t p) k := by
  obtain ⟨e0, e1⟩ := idx1 t
  funext a; apply Fin.ext
  match a with
  | ⟨0, _⟩ => show win0_1.index t (0 : Fin 2) * 2000 + 1 * p.val = win0_10.index t (0 : Fin 2) * 2000 + p.val; omega
  | ⟨1, _⟩ => show win0_1.index t (1 : Fin 2) * 256 + 1 * k.val = k.val; omega
theorem emb2 (t : Fin cfg0.N) (p : Fin 2000) (k : Fin 256) :
    ((cfg0.win 2).blk t).view.emb (ix2 p k) = ix2 (row t p) k := by
  obtain ⟨e0, e1⟩ := idx2 t
  funext a; apply Fin.ext
  match a with
  | ⟨0, _⟩ => show win0_2.index t (0 : Fin 2) * 2000 + 1 * p.val = win0_10.index t (0 : Fin 2) * 2000 + p.val; omega
  | ⟨1, _⟩ => show win0_2.index t (1 : Fin 2) * 256 + 1 * k.val = k.val; omega
theorem emb3 (t : Fin cfg0.N) (x : Fin 8) (y : Fin 32) :
    ((cfg0.win 3).blk t).view.emb (ix2 x y) = ix2 x y := by
  obtain ⟨e0, e1⟩ := idx3 t
  funext a; apply Fin.ext
  match a with
  | ⟨0, _⟩ => show win0_3.index t (0 : Fin 2) * 8 + 1 * x.val = x.val; omega
  | ⟨1, _⟩ => show win0_3.index t (1 : Fin 2) * 32 + 1 * y.val = y.val; omega
theorem emb4 (t : Fin cfg0.N) (x : Fin 1) (y : Fin 32) :
    ((cfg0.win 4).blk t).view.emb (ix2 x y) = ix2 x y := by
  obtain ⟨e0, e1⟩ := idx4 t
  funext a; apply Fin.ext
  match a with
  | ⟨0, _⟩ => show win0_4.index t (0 : Fin 2) * 1 + 1 * x.val = x.val; omega
  | ⟨1, _⟩ => show win0_4.index t (1 : Fin 2) * 32 + 1 * y.val = y.val; omega
theorem emb5 (t : Fin cfg0.N) (x : Fin 32) (y : Fin 1024) :
    ((cfg0.win 5).blk t).view.emb (ix2 x y) = ix2 x y := by
  obtain ⟨e0, e1⟩ := idx5 t
  funext a; apply Fin.ext
  match a with
  | ⟨0, _⟩ => show win0_5.index t (0 : Fin 2) * 32 + 1 * x.val = x.val; omega
  | ⟨1, _⟩ => show win0_5.index t (1 : Fin 2) * 1024 + 1 * y.val = y.val; omega
theorem emb6 (t : Fin cfg0.N) (x : Fin 256) (y : Fin 1024) :
    ((cfg0.win 6).blk t).view.emb (ix2 x y) = ix2 x y := by
  obtain ⟨e0, e1⟩ := idx6 t
  funext a; apply Fin.ext
  match a with
  | ⟨0, _⟩ => show win0_6.index t (0 : Fin 2) * 256 + 1 * x.val = x.val; omega
  | ⟨1, _⟩ => show win0_6.index t (1 : Fin 2) * 1024 + 1 * y.val = y.val; omega
theorem emb7 (t : Fin cfg0.N) (x : Fin 1) (y : Fin 1024) :
    ((cfg0.win 7).blk t).view.emb (ix2 x y) = ix2 x y := by
  obtain ⟨e0, e1⟩ := idx7 t
  funext a; apply Fin.ext
  match a with
  | ⟨0, _⟩ => show win0_7.index t (0 : Fin 2) * 1 + 1 * x.val = x.val; omega
  | ⟨1, _⟩ => show win0_7.index t (1 : Fin 2) * 1024 + 1 * y.val = y.val; omega
theorem emb8 (t : Fin cfg0.N) (x : Fin 256) (y : Fin 32) :
    ((cfg0.win 8).blk t).view.emb (ix2 x y) = ix2 x y := by
  obtain ⟨e0, e1⟩ := idx8 t
  funext a; apply Fin.ext
  match a with
  | ⟨0, _⟩ => show win0_8.index t (0 : Fin 2) * 256 + 1 * x.val = x.val; omega
  | ⟨1, _⟩ => show win0_8.index t (1 : Fin 2) * 32 + 1 * y.val = y.val; omega
theorem emb9 (t : Fin cfg0.N) (x : Fin 1) (y : Fin 32) :
    ((cfg0.win 9).blk t).view.emb (ix2 x y) = ix2 x y := by
  obtain ⟨e0, e1⟩ := idx9 t
  funext a; apply Fin.ext
  match a with
  | ⟨0, _⟩ => show win0_9.index t (0 : Fin 2) * 1 + 1 * x.val = x.val; omega
  | ⟨1, _⟩ => show win0_9.index t (1 : Fin 2) * 32 + 1 * y.val = y.val; omega

/-! ## Each input block, read in terms of the program's arguments -/

theorem read0 (c : Dev nD) (t : Fin cfg0.N) (p : Fin 2000) (l : Fin 8) :
    iblk m c 0 t (ix2 p l) = neigh (a0 m c) (a1 m c) (ix2 (row t p) l) := by
  show (V m c main_v6 : S100000x8.Idx → EReal) (((cfg0.win 0).blk t).view.emb (ix2 p l)) = _
  rw [emb0, V_v6]
theorem read1 (c : Dev nD) (t : Fin cfg0.N) (p : Fin 2000) (k : Fin 256) :
    iblk m c 1 t (ix2 p k) = a2 m c (ix2 (row t p) k) := by
  show (V m c main_arg2 : S100000x256.Idx → EReal) (((cfg0.win 1).blk t).view.emb (ix2 p k)) = _
  rw [emb1, V_main_arg2]
theorem read2 (c : Dev nD) (t : Fin cfg0.N) (p : Fin 2000) (k : Fin 256) :
    iblk m c 2 t (ix2 p k) = a3 m c (ix2 (row t p) k) := by
  show (V m c main_arg3 : S100000x256.Idx → EReal) (((cfg0.win 2).blk t).view.emb (ix2 p k)) = _
  rw [emb2, V_main_arg3]
theorem read3 (c : Dev nD) (t : Fin cfg0.N) (l : Fin 8) (k : Fin 32) :
    iblk m c 3 t (ix2 l k) = a5 m c (ix2 k l) := by
  show (V m c main_v7 : S8x32.Idx → EReal) (((cfg0.win 3).blk t).view.emb (ix2 l k)) = _
  rw [emb3]; exact V_v7_apply m c l k
theorem read4 (c : Dev nD) (t : Fin cfg0.N) (k : Fin 32) :
    iblk m c 4 t (ix2 (0 : Fin 1) k) = a6 m c (ix1 k) := by
  show (V m c main_v16 : S1x32.Idx → EReal) (((cfg0.win 4).blk t).view.emb (ix2 (0 : Fin 1) k)) = _
  rw [emb4]; exact V_v16_apply m c k
theorem read5 (c : Dev nD) (t : Fin cfg0.N) (k : Fin 32) (n : Fin 1024) :
    iblk m c 5 t (ix2 k n) = a7 m c (ix2 n k) := by
  show (V m c main_v9 : S32x1024.Idx → EReal) (((cfg0.win 5).blk t).view.emb (ix2 k n)) = _
  rw [emb5]; exact V_v9_apply m c k n
theorem read6 (c : Dev nD) (t : Fin cfg0.N) (k : Fin 256) (n : Fin 1024) :
    iblk m c 6 t (ix2 k n) = a9 m c (ix2 n k) := by
  show (V m c main_v11 : S256x1024.Idx → EReal) (((cfg0.win 6).blk t).view.emb (ix2 k n)) = _
  rw [emb6]; exact V_v11_apply m c k n
theorem read7 (c : Dev nD) (t : Fin cfg0.N) (n : Fin 1024) :
    iblk m c 7 t (ix2 (0 : Fin 1) n) = a8 m c (ix1 n) + a10 m c (ix1 n) := by
  show (V m c main_v15 : S1x1024.Idx → EReal) (((cfg0.win 7).blk t).view.emb (ix2 (0 : Fin 1) n)) = _
  rw [emb7]; exact V_v15_apply m c n
theorem read8 (c : Dev nD) (t : Fin cfg0.N) (k : Fin 256) (q : Fin 32) :
    iblk m c 8 t (ix2 k q) = a11 m c (ix2 q k) := by
  show (V m c main_v13 : S256x32.Idx → EReal) (((cfg0.win 8).blk t).view.emb (ix2 k q)) = _
  rw [emb8]; exact V_v13_apply m c k q
theorem read9 (c : Dev nD) (t : Fin cfg0.N) (q : Fin 32) :
    iblk m c 9 t (ix2 (0 : Fin 1) q) = a12 m c (ix1 q) := by
  show (V m c main_v17 : S1x32.Idx → EReal) (((cfg0.win 9).blk t).view.emb (ix2 (0 : Fin 1) q)) = _
  rw [emb9]; exact V_v17_apply m c q

/-! ## The whole-array function, and what a point writes back -/

/-- The result array as one function of the program's arguments: entry (r, q) is the LSTM step of row r, at q. -/
def G (c : Dev nD) : S100000x32.Idx → EReal := fun i =>
  rowOut (fun r l => neigh (a0 m c) (a1 m c) (ix2 r l)) (fun r k => a2 m c (ix2 r k)) (fun r k => a3 m c (ix2 r k))
    (fun k l => a5 m c (ix2 k l)) (fun k => a6 m c (ix1 k)) (fun n k => a7 m c (ix2 n k)) (fun n => a8 m c (ix1 n))
    (fun n k => a9 m c (ix2 n k)) (fun n => a10 m c (ix1 n)) (fun q k => a11 m c (ix2 q k)) (fun q => a12 m c (ix1 q))
    (i 0) (i 1)

/-- What point `t` writes back is block `t` of `G`. -/
theorem flushed_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10]
  unfold out0_10
  rw [View.canon_unit_zero hz]
  simp only [View.ld_unit_zero (S := S2000x8) hz, View.ld_unit_zero (S := S8x32) hz, View.ld_unit_zero (S := S1x32) hz,
    View.ld_unit_zero (S := S2000x256) hz, View.ld_unit_zero (S := S32x1024) hz, View.ld_unit_zero (S := S256x1024) hz,
    View.ld_unit_zero (S := S1x1024) hz, View.ld_unit_zero (S := S256x32) hz]
  funext j
  obtain ⟨p, q, rfl⟩ : ∃ (p : Fin 2000) (q : Fin 32), j = ix2 p q := ⟨j 0, j 1, eq_ix2 j⟩
  show k0_pay1 (F := Ideal) (k0_pay2 (F := Ideal) (iblk m c 0 t) (iblk m c 3 t) (iblk m c 4 t) (iblk m c 1 t) (iblk m c 5 t) (iblk m c 6 t)
      (iblk m c 7 t) (iblk m c 2 t)) (iblk m c 8 t) (iblk m c 9 t) (ix2 p q)
    = G m c (((cfg0.win 10).blk t).view.emb (ix2 p q))
  rw [emb10]
  refine (Ker.pay_cell (iblk m c 0 t) (iblk m c 1 t) (iblk m c 2 t) (iblk m c 3 t) (iblk m c 4 t) (iblk m c 5 t)
    (iblk m c 6 t) (iblk m c 7 t) (iblk m c 8 t) (iblk m c 9 t) p q).trans ?_
  have h0 : (fun l : Fin 8 => iblk m c 0 t (ix2 p l)) = fun l => neigh (a0 m c) (a1 m c) (ix2 (row t p) l) :=
    funext fun l => read0 m c t p l
  have h1 : (fun k : Fin 256 => iblk m c 1 t (ix2 p k)) = fun k => a2 m c (ix2 (row t p) k) := funext fun k => read1 m c t p k
  have h2 : (fun k : Fin 256 => iblk m c 2 t (ix2 p k)) = fun k => a3 m c (ix2 (row t p) k) := funext fun k => read2 m c t p k
  have h3 : (fun (l : Fin 8) (k : Fin 32) => iblk m c 3 t (ix2 l k)) = fun l k => a5 m c (ix2 k l) :=
    funext fun l => funext fun k => read3 m c t l k
  have h4 : (fun k : Fin 32 => iblk m c 4 t (ix2 (0 : Fin 1) k)) = fun k => a6 m c (ix1 k) := funext fun k => read4 m c t k
  have h5 : (fun (k : Fin 32) (n : Fin 1024) => iblk m c 5 t (ix2 k n)) = fun k n => a7 m c (ix2 n k) :=
    funext fun k => funext fun n => read5 m c t k n
  have h6 : (fun (k : Fin 256) (n : Fin 1024) => iblk m c 6 t (ix2 k n)) = fun k n => a9 m c (ix2 n k) :=
    funext fun k => funext fun n => read6 m c t k n
  have h7 : (fun n : Fin 1024 => iblk m c 7 t (ix2 (0 : Fin 1) n)) = fun n => a8 m c (ix1 n) + a10 m c (ix1 n) :=
    funext fun n => read7 m c t n
  have h8 : (fun (k : Fin 256) (q : Fin 32) => iblk m c 8 t (ix2 k q)) = fun k q => a11 m c (ix2 q k) :=
    funext fun k => funext fun q => read8 m c t k q
  have h9 : (fun q : Fin 32 => iblk m c 9 t (ix2 (0 : Fin 1) q)) = fun q => a12 m c (ix1 q) := funext fun q => read9 m c t q
  rw [h0, h1, h2, h3, h4, h5, h6, h7, h8, h9]
  rfl

/-! ## The cover, and the array after the run -/

/-- An index of the array is in point `t`'s block iff each coordinate is in the block's range on its axis. -/
theorem mem_blk (t : Fin cfg0.N) (i : S100000x32.Idx) :
    i ∈ ((cfg0.win 10).blk t).view.set ↔ ∀ a : Fin 2, win0_10.index t a * S2000x32.size a ≤ (i a).val ∧ (i a).val < win0_10.index t a * S2000x32.size a + S2000x32.size a := by
  show i ∈ ((View.whole main_v18).slice (win0_10.rect t)).set ↔ _
  rw [View.set_slice_whole, Rect.mem_set_unit]
  exact Iff.rfl

/-- Every index of the result array is in the block of the point that holds its row. -/
theorem cover (i : S100000x32.Idx) :
    ∃ t : Fin cfg0.N, (cfg0.win 10).flush t = true ∧ i ∈ ((cfg0.win 10).blk t).view.set := by
  have hi0 : (i 0).val < 100000 := (i 0).isLt
  have hi1 : (i 1).val < 32 := (i 1).isLt
  obtain ⟨t, ht⟩ := idx_onto ⟨(i 0).val / 2000, by omega⟩
  have q0 : win0_10.index t (0 : Fin 2) = (i 0).val / 2000 := ht
  obtain ⟨q1, _⟩ := idx10 t
  refine ⟨t, flush0_10 t, ?_⟩
  rw [mem_blk]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 32 ≤ (i 1).val ∧ (i 1).val < win0_10.index t (1 : Fin 2) * 32 + 32; omega

/-- The result array after the run is `G`. -/
theorem final (c : Dev nD) : (dats m 0 c).arrAt 10 cfg0.N = G m c :=
  (dats m 0 c).arrAt_eq_of_cover 10 (G m c) (fun t _ => flushed_eq m c t) cover

end Cert.Lstm.KerArr

end
-- ==== Proof.KerRun.lean ====
/-
  The kernel program's run with its result named.  After the region, the program's last lines replace the whole
  result by zeros when exactly one entry of the mask is set and keep it otherwise; the region's result array is the
  row-by-row LSTM step of the arguments (KerArray.lean).  So the run ends with the result buffer at that final
  choice applied to the mask argument and the row-by-row step, and with every argument unchanged.
-/
import proofs.«116967_j63410897158187_2_alg».proof.Proof.KerArray
import Idealize.ShloMosaic.Lib.Pipeline.FrameSuffix

noncomputable section

namespace Cert.Lstm.KerRun

open Cert.KernelIdeal Cert.KernelIdeal.Gen Idealize.ShloMosaic Idealize.ShloMosaic.TcCoe Idealize.ShloMosaic.ValueIdx
open Idealize.SL.Sem Idealize.ShloMosaic.StableHlo
open Cert.Lstm Cert.Lstm.KerPrefix Cert.Lstm.KerArr

variable (m : (ℓ : Loc nD τ sig) → Buf (Elt Ideal) ℓ) (ρ : Dev nD → PrngReg)

/-- The final choice: zeros when exactly one entry of the mask is set, the given array otherwise. -/
def tailK (x4 : IVec S100000 1) (o : FVec Ideal S100000x32 .f32) : FVec Ideal S100000x32 .f32 :=
  select (broadcastInDim S100000x32 ![] Facts₀.bcast_S_S100000x32
      (cmpi .eq (Host.reduce IntOp.addi (extui 32 x4 Facts₀.natLt_1_32) (constantI S_ 32 0#32) Facts₀.reducesTo_S100000_S_d0 Facts₀.h_S_)
        (constantI S_ 32 1#32)))
    (broadcastInDim S100000x32 ![] Facts₀.bcast_S_S100000x32 (constant S_ .f32 0x00000000#32)) o

/-- The mask argument on core `c`. -/
abbrev a4 (c : Dev nD) : IVec S100000 1 := m ((c : Thread nD τ).loc main_arg4)

/-- What the lines after the region leave in the result buffer. -/
theorem tail_eq (c : Dev nD) :
    Pipeline.afterTail₀ cfgs (dats m) 0 (V0 m) [hostOps1, hostOps1_1] c main_v23 = tailK (a4 m c) (G m c) := by
  unfold Pipeline.afterTail₀
  simp only [hostOps1, hostOps1_1, List.flatten_cons, List.flatten_nil, List.append_nil, List.cons_append, List.nil_append]
  after_results
  simp only [cast_eq]
  have e1 : Pipeline.withArrays (cfgs 0).spec c (V0 m c) (fun w => (dats m 0 c).arrAt w (cfgs 0).N) (Proc.devRef .tc main_arg4) = a4 m c :=
    (Pipeline.withArrays_of_ne _ c (V0 m c) _ main_arg4 (by exact (by decide : ∀ w, Pipeline.arrRef spec0 w ≠ main_arg4))).trans
      (V_main_arg4 m c)
  have e2 : Pipeline.withArrays (cfgs 0).spec c (V0 m c) (fun w => (dats m 0 c).arrAt w (cfgs 0).N)
      (Proc.devRef .tc (Pipeline.arrRef spec0 10)) = G m c :=
    (Pipeline.withArrays_arr spec0 launch0.win.arr_inj c _ _ 10).trans (final m c)
  rw [e1, e2]
  rfl

/-- Every weakly fair execution of the kernel program terminates with the result buffer at the final choice applied to the
    mask and the row-by-row LSTM step of the arguments, and with the arguments unchanged. -/
theorem run : θ_run defs (onTc (τ := τ) (main (F := Ideal))) ⟨m, fun _ => 0, ρ⟩ fun r => ∀ c : Dev nD,
      r.2.mem ((c.tc : Thread nD τ).loc main_v23) = tailK (a4 m c) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨((h c).2 main_v23 (Pipeline.mem_restRefs_of main_v23 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩)
    (run_main m ρ)

end Cert.Lstm.KerRun

end
-- ==== Proof.RefRun.lean ====
/-
  The run of the plain program the kernel is compared with, read stretch by stretch.  Its 74 host operations fall
  into six stretches: the neighbour features from the two observation arrays; the embedding (a product with the
  transposed embedding matrix, a bias row, a rectifier); the 1024 gate pre-activations (two products and two bias
  rows); the new hidden state from the four quarters of the gates and the previous cell state (each sigmoid spelt
  as 1 / (1 + exp (-x))); the read-out; and the final choice between the read-out and zeros by whether exactly one
  entry of the mask is set.  Each stretch is evaluated against ANY contents of the buffers before it: its result
  buffer holds the stretch's function of the buffers it reads, and the arguments it does not write are kept.
  Composing the six gives the whole program's result as the composition of the six functions of the arguments.
-/
import proofs.«116967_j63410897158187_2_alg».proof.Proof.RefOps
import Idealize.ShloMosaic.Lib.StableHlo.Run
import Idealize.ShloMosaic.PureOps.Ideal

noncomputable section

namespace Cert.Lstm.Ref

open Cert.ReferenceIdeal Cert.ReferenceIdeal.Gen Cert.ReferenceIdeal.Ops Idealize.ShloMosaic Idealize.ShloMosaic.TcCoe Idealize.SL.Sem
open Idealize.ShloMosaic.StableHlo

/-! ## The six functions -/

/-- The observation-derived states `[obs2, obs2 - obs1]`, four columns. -/
def states (x0 x1 : FVec Ideal S100000x2 .f32) : FVec Ideal S100000x4 .f32 :=
  concatenate S100000x4 1 [⟨S100000x2, x1⟩, ⟨S100000x2, subf x1 x0⟩] concatenates_S100000x2_S100000x2_S100000x4_d1

/-- The neighbour features `[states, total - states]`, eight columns, `total` the column sums of the states. -/
def neigh (x0 x1 : FVec Ideal S100000x2 .f32) : FVec Ideal S100000x8 .f32 :=
  concatenate S100000x8 1 [⟨S100000x4, states x0 x1⟩,
    ⟨S100000x4, subf (broadcastInDim S100000x4 ![0, 1] bcast_S1x4_S100000x4_0_1
      (broadcastInDim S1x4 ![1] bcast_S4_S1x4_1
        (Host.reduceAdd (states x0 x1) (constant S_ .f32 0x00000000#32) reducesTo_S100000x4_S4_d0 h_S_)))
      (states x0 x1)⟩] concatenates_S100000x4_S100000x4_S100000x8_d1

/-- The embedding: features times the transposed embedding matrix, plus the bias row, rectified. -/
def embS (ng : FVec Ideal S100000x8 .f32) (x5 : FVec Ideal S32x8 .f32) (x6 : FVec Ideal S32 .f32) : FVec Ideal S100000x32 .f32 :=
  maximumf (addf (Host.dotGeneral dot_S100000x8_S8x32_S100000x32_1_0_0_1_n_n none ng (transpose S8x32 [1, 0] x5 transposes_S32x8_S8x32_1_0))
      (broadcastInDim S100000x32 ![0, 1] bcast_S1x32_S100000x32_0_1 (broadcastInDim S1x32 ![1] bcast_S32_S1x32_1 x6)))
    (broadcastInDim S100000x32 ![] bcast_S_S100000x32 (constant S_ .f32 0x00000000#32))

/-- The gate pre-activations: `((e · Wiᵀ + bi) + h · Whᵀ) + bh`. -/
def gatesS (e : FVec Ideal S100000x32 .f32) (x2 : FVec Ideal S100000x256 .f32) (x7 : FVec Ideal S1024x32 .f32)
    (x8 : FVec Ideal S1024 .f32) (x9 : FVec Ideal S1024x256 .f32) (x10 : FVec Ideal S1024 .f32) : FVec Ideal S100000x1024 .f32 :=
  addf (addf (addf (Host.dotGeneral dot_S100000x32_S32x1024_S100000x1024_1_0_0_1_n_n none e (transpose S32x1024 [1, 0] x7 transposes_S1024x32_S32x1024_1_0))
        (broadcastInDim S100000x1024 ![0, 1] bcast_S1x1024_S100000x1024_0_1 (broadcastInDim S1x1024 ![1] bcast_S1024_S1x1024_1 x8)))
      (Host.dotGeneral dot_S100000x256_S256x1024_S100000x1024_1_0_0_1_n_n none x2 (transpose S256x1024 [1, 0] x9 transposes_S1024x256_S256x1024_1_0)))
    (broadcastInDim S100000x1024 ![0, 1] bcast_S1x1024_S100000x1024_0_1 (broadcastInDim S1x1024 ![1] bcast_S1024_S1x1024_1 x10))

/-- The constant one, at every entry. -/
def ones : FVec Ideal S100000x256 .f32 := broadcastInDim S100000x256 ![] bcast_S_S100000x256 (constant S_ .f32 0x3F800000#32)

/-- The sigmoid as spelt: `1 / (1 + exp (-x))`. -/
def sgm (x : FVec Ideal S100000x256 .f32) : FVec Ideal S100000x256 .f32 := Host.divf ones (addf ones (Host.exp (Host.negf x)))

/-- The new hidden state from the gates' four quarters and the previous cell state. -/
def hidS (g : FVec Ideal S100000x1024 .f32) (x3 : FVec Ideal S100000x256 .f32) : FVec Ideal S100000x256 .f32 :=
  mulf (sgm (extractStridedSlice S100000x256 ![0, 768] g slices_S100000x1024_S100000x256_0_768))
    (Host.tanh (addf (mulf (sgm (extractStridedSlice S100000x256 ![0, 256] g slices_S100000x1024_S100000x256_0_256)) x3)
      (mulf (sgm (extractStridedSlice S100000x256 ![0, 0] g slices_S100000x1024_S100000x256_0_0))
        (Host.tanh (extractStridedSlice S100000x256 ![0, 512] g slices_S100000x1024_S100000x256_0_512)))))

/-- The read-out: the new hidden state times the transposed read-out matrix, plus the bias row. -/
def outS (hn : FVec Ideal S100000x256 .f32) (x11 : FVec Ideal S32x256 .f32) (x12 : FVec Ideal S32 .f32) : FVec Ideal S100000x32 .f32 :=
  addf (Host.dotGeneral dot_S100000x256_S256x32_S100000x32_1_0_0_1_n_n none hn (transpose S256x32 [1, 0] x11 transposes_S32x256_S256x32_1_0))
    (broadcastInDim S100000x32 ![0, 1] bcast_S1x32_S100000x32_0_1 (broadcastInDim S1x32 ![1] bcast_S32_S1x32_1 x12))

/-- The final choice: zeros when exactly one entry of the mask is set, the read-out otherwise. -/
def tailS (x4 : IVec S100000 1) (o : FVec Ideal S100000x32 .f32) : FVec Ideal S100000x32 .f32 :=
  select (broadcastInDim S100000x32 ![] bcast_S_S100000x32
      (cmpi .eq (Host.reduce IntOp.addi (extui 32 x4 natLt_1_32) (constantI S_ 32 0#32) reducesTo_S100000_S_d0 h_S_) (constantI S_ 32 1#32)))
    (broadcastInDim S100000x32 ![] bcast_S_S100000x32 (constant S_ .f32 0x00000000#32)) o

/-! ## The operations, stretch by stretch -/

/-- Operations `a … a + n - 1` of the program. -/
def seg (a n : Nat) : List (HloOp τ sig (Elt Ideal)) := ((ops (F := Ideal)).drop a).take n

theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

theorem ops_split : (ops (F := Ideal)) = seg 0 8 ++ (seg 8 8 ++ (seg 16 11 ++ (seg 27 34 ++ (seg 61 5 ++ seg 66 8)))) := rfl

/-- A buffer none of the listed operations writes keeps its contents. -/
macro "kept_tac" : tactic => `(tactic| (
  refine after_of_forall_not_mem _ _ (List.forall_iff_forall_mem.mp ?_)
  simp only [seg, ops, List.drop_succ_cons, List.drop_zero, List.take_succ_cons, List.take_zero, List.Forall,
    nullary_writes, unary_writes, binary_writes, ternary_writes, Finset.mem_singleton]
  repeat' apply And.intro
  all_goals exact devRef_ne_of_ne (by decide)))

macro "kept_all" : tactic => `(tactic| (
  refine after_of_forall_not_mem _ _ (List.forall_iff_forall_mem.mp ?_)
  simp only [ops, List.Forall, nullary_writes, unary_writes, binary_writes, ternary_writes, Finset.mem_singleton]
  repeat' apply And.intro
  all_goals exact devRef_ne_of_ne (by decide)))

macro "lit_seg" : tactic => `(tactic| simp only [seg, ops, List.drop_succ_cons, List.drop_zero, List.take_succ_cons, List.take_zero])

theorem st1 (W : Valuation τ sig (Elt Ideal)) :
    after (seg 0 8) W (Proc.devRef .tc main_v6) = neigh (W (Proc.devRef .tc main_arg0)) (W (Proc.devRef .tc main_arg1)) := by
  lit_seg
  after_results <;> rfl
theorem st2 (W : Valuation τ sig (Elt Ideal)) :
    after (seg 8 8) W (Proc.devRef .tc main_v12)
      = embS (W (Proc.devRef .tc main_v6)) (W (Proc.devRef .tc main_arg5)) (W (Proc.devRef .tc main_arg6)) := by
  lit_seg
  after_results <;> rfl
theorem st3 (W : Valuation τ sig (Elt Ideal)) :
    after (seg 16 11) W (Proc.devRef .tc main_v23)
      = gatesS (W (Proc.devRef .tc main_v12)) (W (Proc.devRef .tc main_arg2)) (W (Proc.devRef .tc main_arg7))
          (W (Proc.devRef .tc main_arg8)) (W (Proc.devRef .tc main_arg9)) (W (Proc.devRef .tc main_arg10)) := by
  lit_seg
  after_results <;> rfl
theorem st4 (W : Valuation τ sig (Elt Ideal)) :
    after (seg 27 34) W (Proc.devRef .tc main_v51) = hidS (W (Proc.devRef .tc main_v23)) (W (Proc.devRef .tc main_arg3)) := by
  lit_seg
  after_results_simp <;> rfl
theorem st5 (W : Valuation τ sig (Elt Ideal)) :
    after (seg 61 5) W (Proc.devRef .tc main_v56)
      = outS (W (Proc.devRef .tc main_v51)) (W (Proc.devRef .tc main_arg11)) (W (Proc.devRef .tc main_arg12)) := by
  lit_seg
  after_results <;> rfl
theorem st6 (W : Valuation τ sig (Elt Ideal)) :
    after (seg 66 8) W (Proc.devRef .tc main_v61) = tailS (W (Proc.devRef .tc main_arg4)) (W (Proc.devRef .tc main_v56)) := by
  lit_seg
  after_results
  simp only [cast_eq]
  rfl

/-! ## What each stretch keeps: the argument buffers that later stretches still read -/

theorem k1_2 (W : Valuation τ sig (Elt Ideal)) :
    after (seg 0 8) W (Proc.devRef .tc main_arg2) = W (Proc.devRef .tc main_arg2) := by kept_tac
theorem k1_3 (W : Valuation τ sig (Elt Ideal)) :
    after (seg 0 8) W (Proc.devRef .tc main_arg3) = W (Proc.devRef .tc main_arg3) := by kept_tac
theorem k1_4 (W : Valuation τ sig (Elt Ideal)) :
    after (seg 0 8) W (Proc.devRef .tc main_arg4) = W (Proc.devRef .tc main_arg4) := by kept_tac
theorem k1_5 (W : Valuation τ sig (Elt Ideal)) :
    after (seg 0 8) W (Proc.devRef .tc main_arg5) = W (Proc.devRef .tc main_arg5) := by kept_tac
theorem k1_6 (W : Valuation τ sig (Elt Ideal)) :
    after (seg 0 8) W (Proc.devRef .tc main_arg6) = W (Proc.devRef .tc main_arg6) := by kept_tac
theorem k1_7 (W : Valuation τ sig (Elt Ideal)) :
    after (seg 0 8) W (Proc.devRef .tc main_arg7) = W (Proc.devRef .tc main_arg7) := by kept_tac
theorem k1_8 (W : Valuation τ sig (Elt Ideal)) :
    after (seg 0 8) W (Proc.devRef .tc main_arg8) = W (Proc.devRef .tc main_arg8) := by kept_tac
theorem k1_9 (W : Valuation τ sig (Elt Ideal)) :
    after (seg 0 8) W (Proc.devRef .tc main_arg9) = W (Proc.devRef .tc main_arg9) := by kept_tac
theorem k1_10 (W : Valuation τ sig (Elt Ideal)) :
    after (seg 0 8) W (Proc.devRef .tc main_arg10) = W (Proc.devRef .tc main_arg10) := by kept_tac
theorem k1_11 (W : Valuation τ sig (Elt Ideal)) :
    after (seg 0 8) W (Proc.devRef .tc main_arg11) = W (Proc.devRef .tc main_arg11) := by kept_tac
theorem k1_12 (W : Valuation τ sig (Elt Ideal)) :
    after (seg 0 8) W (Proc.devRef .tc main_arg12) = W (Proc.devRef .tc main_arg12) := by kept_tac
theorem k2_2 (W : Valuation τ sig (Elt Ideal)) :
    after (seg 8 8) W (Proc.devRef .tc main_arg2) = W (Proc.devRef .tc main_arg2) := by kept_tac
theorem k2_3 (W : Valuation τ sig (Elt Ideal)) :
    after (seg 8 8) W (Proc.devRef .tc main_arg3) = W (Proc.devRef .tc main_arg3) := by kept_tac
theorem k2_4 (W : Valuation τ sig (Elt Ideal)) :
    after (seg 8 8) W (Proc.devRef .tc main_arg4) = W (Proc.devRef .tc main_arg4) := by kept_tac
theorem k2_7 (W : Valuation τ sig (Elt Ideal)) :
    after (seg 8 8) W (Proc.devRef .tc main_arg7) = W (Proc.devRef .tc main_arg7) := by kept_tac
theorem k2_8 (W : Valuation τ sig (Elt Ideal)) :
    after (seg 8 8) W (Proc.devRef .tc main_arg8) = W (Proc.devRef .tc main_arg8) := by kept_tac
theorem k2_9 (W : Valuation τ sig (Elt Ideal)) :
    after (seg 8 8) W (Proc.devRef .tc main_arg9) = W (Proc.devRef .tc main_arg9) := by kept_tac
theorem k2_10 (W : Valuation τ sig (Elt Ideal)) :
    after (seg 8 8) W (Proc.devRef .tc main_arg10) = W (Proc.devRef .tc main_arg10) := by kept_tac
theorem k2_11 (W : Valuation τ sig (Elt Ideal)) :
    after (seg 8 8) W (Proc.devRef .tc main_arg11) = W (Proc.devRef .tc main_arg11) := by kept_tac
theorem k2_12 (W : Valuation τ sig (Elt Ideal)) :
    after (seg 8 8) W (Proc.devRef .tc main_arg12) = W (Proc.devRef .tc main_arg12) := by kept_tac
theorem k3_3 (W : Valuation τ sig (Elt Ideal)) :
    after (seg 16 11) W (Proc.devRef .tc main_arg3) = W (Proc.devRef .tc main_arg3) := by kept_tac
theorem k3_4 (W : Valuation τ sig (Elt Ideal)) :
    after (seg 16 11) W (Proc.devRef .tc main_arg4) = W (Proc.devRef .tc main_arg4) := by kept_tac
theorem k3_11 (W : Valuation τ sig (Elt Ideal)) :
    after (seg 16 11) W (Proc.devRef .tc main_arg11) = W (Proc.devRef .tc main_arg11) := by kept_tac
theorem k3_12 (W : Valuation τ sig (Elt Ideal)) :
    after (seg 16 11) W (Proc.devRef .tc main_arg12) = W (Proc.devRef .tc main_arg12) := by kept_tac
theorem k4_4 (W : Valuation τ sig (Elt Ideal)) :
    after (seg 27 34) W (Proc.devRef .tc main_arg4) = W (Proc.devRef .tc main_arg4) := by kept_tac
theorem k4_11 (W : Valuation τ sig (Elt Ideal)) :
    after (seg 27 34) W (Proc.devRef .tc main_arg11) = W (Proc.devRef .tc main_arg11) := by kept_tac
theorem k4_12 (W : Valuation τ sig (Elt Ideal)) :
    after (seg 27 34) W (Proc.devRef .tc main_arg12) = W (Proc.devRef .tc main_arg12) := by kept_tac
theorem k5_4 (W : Valuation τ sig (Elt Ideal)) :
    after (seg 61 5) W (Proc.devRef .tc main_arg4) = W (Proc.devRef .tc main_arg4) := by kept_tac
/-! ## What the whole program keeps: no operation writes an argument buffer -/

theorem kept_0 (W : Valuation τ sig (Elt Ideal)) :
    after (ops (F := Ideal)) W (Proc.devRef .tc main_arg0) = W (Proc.devRef .tc main_arg0) := by kept_all
theorem kept_1 (W : Valuation τ sig (Elt Ideal)) :
    after (ops (F := Ideal)) W (Proc.devRef .tc main_arg1) = W (Proc.devRef .tc main_arg1) := by kept_all
theorem kept_2 (W : Valuation τ sig (Elt Ideal)) :
    after (ops (F := Ideal)) W (Proc.devRef .tc main_arg2) = W (Proc.devRef .tc main_arg2) := by kept_all
theorem kept_3 (W : Valuation τ sig (Elt Ideal)) :
    after (ops (F := Ideal)) W (Proc.devRef .tc main_arg3) = W (Proc.devRef .tc main_arg3) := by kept_all
theorem kept_4 (W : Valuation τ sig (Elt Ideal)) :
    after (ops (F := Ideal)) W (Proc.devRef .tc main_arg4) = W (Proc.devRef .tc main_arg4) := by kept_all
theorem kept_5 (W : Valuation τ sig (Elt Ideal)) :
    after (ops (F := Ideal)) W (Proc.devRef .tc main_arg5) = W (Proc.devRef .tc main_arg5) := by kept_all
theorem kept_6 (W : Valuation τ sig (Elt Ideal)) :
    after (ops (F := Ideal)) W (Proc.devRef .tc main_arg6) = W (Proc.devRef .tc main_arg6) := by kept_all
theorem kept_7 (W : Valuation τ sig (Elt Ideal)) :
    after (ops (F := Ideal)) W (Proc.devRef .tc main_arg7) = W (Proc.devRef .tc main_arg7) := by kept_all
theorem kept_8 (W : Valuation τ sig (Elt Ideal)) :
    after (ops (F := Ideal)) W (Proc.devRef .tc main_arg8) = W (Proc.devRef .tc main_arg8) := by kept_all
theorem kept_9 (W : Valuation τ sig (Elt Ideal)) :
    after (ops (F := Ideal)) W (Proc.devRef .tc main_arg9) = W (Proc.devRef .tc main_arg9) := by kept_all
theorem kept_10 (W : Valuation τ sig (Elt Ideal)) :
    after (ops (F := Ideal)) W (Proc.devRef .tc main_arg10) = W (Proc.devRef .tc main_arg10) := by kept_all
theorem kept_11 (W : Valuation τ sig (Elt Ideal)) :
    after (ops (F := Ideal)) W (Proc.devRef .tc main_arg11) = W (Proc.devRef .tc main_arg11) := by kept_all
theorem kept_12 (W : Valuation τ sig (Elt Ideal)) :
    after (ops (F := Ideal)) W (Proc.devRef .tc main_arg12) = W (Proc.devRef .tc main_arg12) := by kept_all

/-! ## The whole program -/

/-- The program's result as the composition of the six functions of its arguments. -/
def refOut (x0 x1 : FVec Ideal S100000x2 .f32) (x2 x3 : FVec Ideal S100000x256 .f32) (x4 : IVec S100000 1)
    (x5 : FVec Ideal S32x8 .f32) (x6 : FVec Ideal S32 .f32) (x7 : FVec Ideal S1024x32 .f32) (x8 : FVec Ideal S1024 .f32)
    (x9 : FVec Ideal S1024x256 .f32) (x10 : FVec Ideal S1024 .f32) (x11 : FVec Ideal S32x256 .f32) (x12 : FVec Ideal S32 .f32) :
    FVec Ideal S100000x32 .f32 :=
  tailS x4 (outS (hidS (gatesS (embS (neigh x0 x1) x5 x6) x2 x7 x8 x9 x10) x3) x11 x12)

/-- After all 74 operations the result buffer holds that composition of the argument buffers' contents. -/
theorem result_eq (V : Valuation τ sig (Elt Ideal)) :
    after (ops (F := Ideal)) V (Proc.devRef .tc main_v61)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_split, after_app, after_app, after_app, after_app, after_app]
  rw [st6, st5, k5_4, st4, k4_4, k4_11, k4_12, st3, k3_3, k3_4, k3_11, k3_12, st2, k2_2, k2_3, k2_4, k2_7, k2_8, k2_9, k2_10, k2_11, k2_12,
    st1, k1_2, k1_3, k1_4, k1_5, k1_6, k1_7, k1_8, k1_9, k1_10, k1_11, k1_12]
  rfl

/-- Every weakly fair execution of the program terminates with the result buffer at the composition of the six
    functions of the arguments, and with the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v61).trans (result_eq _),
      (h c main_arg0).trans (kept_0 _),
      (h c main_arg1).trans (kept_1 _),
      (h c main_arg2).trans (kept_2 _),
      (h c main_arg3).trans (kept_3 _),
      (h c main_arg4).trans (kept_4 _),
      (h c main_arg5).trans (kept_5 _),
      (h c main_arg6).trans (kept_6 _),
      (h c main_arg7).trans (kept_7 _),
      (h c main_arg8).trans (kept_8 _),
      (h c main_arg9).trans (kept_9 _),
      (h c main_arg10).trans (kept_10 _),
      (h c main_arg11).trans (kept_11 _),
      (h c main_arg12).trans (kept_12 _)⟩)
    (run_seq scopedRefs_eq scopedSems_eq defs main (fun _ => ops) main_eq (fun _ => ops_sub) m ρ)

end Cert.Lstm.Ref

end
-- ==== Proof.LibHostDot.lean ====
/-
  The host's general dot product of an M×K array by a K×N array, read at an index of the result at the exact
  (extended-real) instance: entry (r, c) is the sum over the contracted coordinate k of left (r, k) times
  right (k, c), whatever the summation schedule.  Stated for any dimension numbers that contract the left
  operand's second axis with the right operand's first and have no batch axes.  At the exact instance the host's
  product and a matrix product accumulated into zeros are the same sum, which is how it is proved.
  Also: a length-n vector laid out as a 1×n row and repeated down m rows reads, at (r, c), the vector's entry c.
-/
import proofs.«116967_j63410897158187_2_alg».proof.Proof.LibMatmul

noncomputable section

namespace Idealize.ShloMosaic.HostDotRead

open Idealize.ShloMosaic Idealize.ShloMosaic.ValueIdx
open scoped BigOperators

/-- At the exact instance the host's product is the matrix product accumulated into zeros: both are the
    contraction sum with nothing added. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

/-- Entry (r, c) of the host's product of an M×K array by a K×N array is `∑ k, left (r, k) * right (k, c)`. -/
theorem dotGeneral_apply2 {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (⟨lc, rc, ln, rn, lb, rb, wf⟩ : DotDims ⟨2, ![M, K]⟩ ⟨2, ![K, N]⟩ ⟨2, ![M, N]⟩) prec sched lhs rhs j
      = ∑ k : Fin K, lhs (ix2 (j 0) k) * rhs (ix2 k (j 1)) :=
  (congrFun (dotGeneral_eq_matmul_zero _ prec sched lhs rhs) j).trans
    (MatmulRead.matmul_zero_apply lc rc ln rn lb rb h1 h2 h3 h4 h5 h6 wf prec lhs rhs j)

/-- A length-n vector as a 1×n row repeated down m rows reads, at (r, c), the vector's entry c. -/
theorem rows_apply {α : Type} {m n : Nat} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (c : Fin n) :
    broadcastInDim ⟨2, ![m, n]⟩ ![0, 1] h2 (broadcastInDim ⟨2, ![1, n]⟩ ![1] h1 v) (ix2 r c) = v (ix1 c) := by
  refine (broadcastInDim_apply ![0, 1] h2 _ (ix2 r c) (ix2 (0 : Fin 1) c) fun a => ?_).trans
    (broadcastInDim_apply ![1] h1 v (ix2 (0 : Fin 1) c) (ix1 c) fun a => ?_)
  · match a with
    | ⟨0, _⟩ => rfl
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

end Idealize.ShloMosaic.HostDotRead

end
-- ==== Proof.RefCell.lean ====
/-
  The plain program's six functions read one row at a time.  Entry (r, q) of the read-out depends on row r of the
  neighbour features, of the previous hidden state and of the previous cell state only: each product is a plain
  sum over the contracted coordinate of a row times a row of the (transposed) weight matrix, each bias vector is
  repeated down the rows, the gates are the four quarters of the 1024 columns, and the sigmoid spelt with a
  negation, an exponential, a sum and a quotient is the sigmoid.  The result is the LSTM step of Cell.lean for row
  r; the gate sum is grouped ((e·Wi + bi) + h·Wh) + bh here, which is regrouped by commutativity and
  associativity of the extended reals' addition.
-/
import proofs.«116967_j63410897158187_2_alg».proof.Proof.RefRun
import proofs.«116967_j63410897158187_2_alg».proof.Proof.LibHostDot
import proofs.«116967_j63410897158187_2_alg».proof.Proof.Cell
import Idealize.ShloMosaic.Lib.ValueLayout
import Idealize.ShloMosaic.Lib.ValueIdx
import Idealize.ShloMosaic.Lib.Pipeline.Value

noncomputable section

namespace Cert.Lstm.Ref

open Cert.ReferenceIdeal Cert.ReferenceIdeal.Gen Idealize.ShloMosaic Idealize.ShloMosaic.ValueIdx
open scoped BigOperators

/-- A scalar constant spread over a matrix reads the constant at every entry. -/
theorem splat_apply {M N : Nat} (b : BitVec 32) (h : S_.BroadcastsInDim ⟨2, ![M, N]⟩ ![]) (i : (⟨2, ![M, N]⟩ : Shape).Idx) :
    broadcastInDim ⟨2, ![M, N]⟩ ![] h (constant (F := Ideal) S_ .f32 b) i = Ideal.ofBits .f32 b :=
  broadcastInDim_apply _ h _ i ix0 (fun a => a.elim0)

/-- Row r of the embedding is the embedding of row r of the features. -/
theorem embS_row (ng : FVec Ideal S100000x8 .f32) (x5 : FVec Ideal S32x8 .f32) (x6 : FVec Ideal S32 .f32) (r : Fin 100000) :
    (fun k : Fin 32 => embS ng x5 x6 (ix2 r k))
      = emb (fun l => ng (ix2 r l)) (fun l k => x5 (ix2 k l)) (fun k => x6 (ix1 k)) := by
  funext k
  unfold embS emb
  rw [maximumf_apply, addf_apply]
  refine congrArg₂ max (congrArg₂ (· + ·) ?_ ?_) ?_
  · refine (HostDotRead.dotGeneral_apply2 _ _ _ _ _ _ rfl rfl rfl rfl rfl rfl _ none _ ng
      (transpose S8x32 [1, 0] x5 transposes_S32x8_S8x32_1_0) (ix2 r k)).trans ?_
    exact Finset.sum_congr rfl fun l _ => congrArg (ng (ix2 r l) * ·) (transpose_ix2_apply x5 _ l k)
  · exact HostDotRead.rows_apply x6 _ _ r k
  · exact (splat_apply _ _ _).trans Ideal.ofBits_zero_f32

/-- Row r of the gate pre-activations is the gate row of row r of the embedding and of the hidden state. -/
theorem gatesS_row (e : FVec Ideal S100000x32 .f32) (x2 : FVec Ideal S100000x256 .f32) (x7 : FVec Ideal S1024x32 .f32)
    (x8 : FVec Ideal S1024 .f32) (x9 : FVec Ideal S1024x256 .f32) (x10 : FVec Ideal S1024 .f32) (r : Fin 100000) :
    (fun n : Fin 1024 => gatesS e x2 x7 x8 x9 x10 (ix2 r n))
      = gate (fun k => e (ix2 r k)) (fun k => x2 (ix2 r k)) (fun k n => x7 (ix2 n k)) (fun k n => x9 (ix2 n k))
          (fun n => x8 (ix1 n) + x10 (ix1 n)) := by
  funext n
  have d1 : Host.dotGeneral dot_S100000x32_S32x1024_S100000x1024_1_0_0_1_n_n none e
      (transpose S32x1024 [1, 0] x7 transposes_S1024x32_S32x1024_1_0) (ix2 r n) = ∑ k : Fin 32, e (ix2 r k) * x7 (ix2 n k) :=
    (HostDotRead.dotGeneral_apply2 _ _ _ _ _ _ rfl rfl rfl rfl rfl rfl _ none _ e
      (transpose S32x1024 [1, 0] x7 transposes_S1024x32_S32x1024_1_0) (ix2 r n)).trans
      (Finset.sum_congr rfl fun k _ => congrArg (e (ix2 r k) * ·) (transpose_ix2_apply x7 _ k n))
  have d2 : Host.dotGeneral dot_S100000x256_S256x1024_S100000x1024_1_0_0_1_n_n none x2
      (transpose S256x1024 [1, 0] x9 transposes_S1024x256_S256x1024_1_0) (ix2 r n) = ∑ k : Fin 256, x2 (ix2 r k) * x9 (ix2 n k) :=
    (HostDotRead.dotGeneral_apply2 _ _ _ _ _ _ rfl rfl rfl rfl rfl rfl _ none _ x2
      (transpose S256x1024 [1, 0] x9 transposes_S1024x256_S256x1024_1_0) (ix2 r n)).trans
      (Finset.sum_congr rfl fun k _ => congrArg (x2 (ix2 r k) * ·) (transpose_ix2_apply x9 _ k n))
  have b1 := HostDotRead.rows_apply x8 bcast_S1024_S1x1024_1 bcast_S1x1024_S100000x1024_0_1 r n
  have b2 := HostDotRead.rows_apply x10 bcast_S1024_S1x1024_1 bcast_S1x1024_S100000x1024_0_1 r n
  unfold gatesS
  rw [addf_apply, addf_apply, addf_apply]
  refine Eq.trans (congrArg₂ (· + ·) (congrArg₂ (· + ·) (congrArg₂ (· + ·) ?_ ?_) ?_) ?_)
    (gate_regroup (fun k => e (ix2 r k)) (fun k => x2 (ix2 r k)) (fun k n => x7 (ix2 n k)) (fun k n => x9 (ix2 n k))
      (fun n => x8 (ix1 n)) (fun n => x10 (ix1 n)) n)
  · exact d1
  · exact b1
  · exact d2
  · exact b2

/-- The constant one at any entry. -/
theorem ones_apply (i : S100000x256.Idx) : ones i = Ideal.ofBits .f32 0x3F800000#32 := splat_apply _ _ i

/-- The spelt sigmoid at an entry is the sigmoid of the entry. -/
theorem sgm_apply (x : FVec Ideal S100000x256 .f32) (i : S100000x256.Idx) : sgm x i = Ideal.logistic (x i) := by
  show Ideal.div (ones i) (ones i + Ideal.exp (-(x i))) = _
  rw [ones_apply]
  exact logistic_spelt _

/-- Row r of the new hidden state is the hidden row of row r of the gates and of the cell state. -/
theorem hidS_row (g : FVec Ideal S100000x1024 .f32) (x3 : FVec Ideal S100000x256 .f32) (r : Fin 100000) :
    (fun k : Fin 256 => hidS g x3 (ix2 r k)) = hid (fun n => g (ix2 r n)) (fun k => x3 (ix2 r k)) := by
  funext k
  have e768 := slice2_axis1_apply 768 g slices_S100000x1024_S100000x256_0_768 r k (col 768 (by norm_num) k) rfl
  have e256 := slice2_axis1_apply 256 g slices_S100000x1024_S100000x256_0_256 r k (col 256 (by norm_num) k) rfl
  have e0 := slice2_axis1_apply 0 g slices_S100000x1024_S100000x256_0_0 r k (col 0 (by norm_num) k) rfl
  have e512 := slice2_axis1_apply 512 g slices_S100000x1024_S100000x256_0_512 r k (col 512 (by norm_num) k) rfl
  show sgm (extractStridedSlice S100000x256 ![0, 768] g slices_S100000x1024_S100000x256_0_768) (ix2 r k)
      * Ideal.tanh (sgm (extractStridedSlice S100000x256 ![0, 256] g slices_S100000x1024_S100000x256_0_256) (ix2 r k) * x3 (ix2 r k)
        + sgm (extractStridedSlice S100000x256 ![0, 0] g slices_S100000x1024_S100000x256_0_0) (ix2 r k)
          * Ideal.tanh (extractStridedSlice S100000x256 ![0, 512] g slices_S100000x1024_S100000x256_0_512 (ix2 r k))) = _
  rw [sgm_apply, sgm_apply, sgm_apply, e768, e256, e0, e512]
  rfl

/-- Entry (r, q) of the read-out is the read-out of row r of the new hidden state. -/
theorem outS_apply (hn : FVec Ideal S100000x256 .f32) (x11 : FVec Ideal S32x256 .f32) (x12 : FVec Ideal S32 .f32)
    (r : Fin 100000) (q : Fin 32) :
    outS hn x11 x12 (ix2 r q) = out (fun k => hn (ix2 r k)) (fun k q => x11 (ix2 q k)) (fun q => x12 (ix1 q)) q := by
  unfold outS out
  rw [addf_apply]
  refine congrArg₂ (· + ·) ?_ (HostDotRead.rows_apply x12 _ _ r q)
  refine (HostDotRead.dotGeneral_apply2 _ _ _ _ _ _ rfl rfl rfl rfl rfl rfl _ none _ hn
    (transpose S256x32 [1, 0] x11 transposes_S32x256_S256x32_1_0) (ix2 r q)).trans ?_
  exact Finset.sum_congr rfl fun k _ => congrArg (hn (ix2 r k) * ·) (transpose_ix2_apply x11 _ k q)

/-- Entry (r, q) of the composed read-out is the LSTM step of row r, at q. -/
theorem ref_rowOut (ng : FVec Ideal S100000x8 .f32) (x2 x3 : FVec Ideal S100000x256 .f32) (x5 : FVec Ideal S32x8 .f32)
    (x6 : FVec Ideal S32 .f32) (x7 : FVec Ideal S1024x32 .f32) (x8 : FVec Ideal S1024 .f32) (x9 : FVec Ideal S1024x256 .f32)
    (x10 : FVec Ideal S1024 .f32) (x11 : FVec Ideal S32x256 .f32) (x12 : FVec Ideal S32 .f32) (r : Fin 100000) (q : Fin 32) :
    outS (hidS (gatesS (embS ng x5 x6) x2 x7 x8 x9 x10) x3) x11 x12 (ix2 r q)
      = rowOut (fun r l => ng (ix2 r l)) (fun r k => x2 (ix2 r k)) (fun r k => x3 (ix2 r k))
          (fun k l => x5 (ix2 k l)) (fun k => x6 (ix1 k)) (fun n k => x7 (ix2 n k)) (fun n => x8 (ix1 n))
          (fun n k => x9 (ix2 n k)) (fun n => x10 (ix1 n)) (fun q k => x11 (ix2 q k)) (fun q => x12 (ix1 q)) r q := by
  rw [outS_apply, hidS_row, gatesS_row, embS_row]
  rfl

end Cert.Lstm.Ref

end
-- ==== Proof.Bridge.lean ====
/-
  The two programs compute one function.  Both build the neighbour features from the two observation arrays by the
  same host lines, and both end with the same choice between zeros and the read-out; in between, the kernel's
  result array and the plain program's read-out are, entry by entry, the LSTM step of Cell.lean applied to row r of
  the features, of the hidden state and of the cell state.
-/
import proofs.«116967_j63410897158187_2_alg».proof.Proof.KerRun
import proofs.«116967_j63410897158187_2_alg».proof.Proof.RefCell

noncomputable section

namespace Cert.Lstm.Bridge

open Idealize.ShloMosaic Idealize.ShloMosaic.ValueIdx Cert.Lstm

/-- The neighbour features are the same function of the observations in both programs. -/
theorem neigh_eq (x0 x1 : FVec Ideal Cert.ReferenceIdeal.S100000x2 .f32) : Ref.neigh x0 x1 = KerPrefix.neigh x0 x1 := rfl

/-- The final choice is the same function of the mask and of the read-out in both programs. -/
theorem tail_eq (x4 : IVec Cert.ReferenceIdeal.S100000 1) (o : FVec Ideal Cert.ReferenceIdeal.S100000x32 .f32) :
    Ref.tailS x4 o = KerRun.tailK x4 o := rfl

/-- The plain program's result is the final choice applied to the mask and to the row-by-row LSTM step. -/
theorem refOut_eq (x0 x1 : FVec Ideal Cert.ReferenceIdeal.S100000x2 .f32) (x2 x3 : FVec Ideal Cert.ReferenceIdeal.S100000x256 .f32)
    (x4 : IVec Cert.ReferenceIdeal.S100000 1) (x5 : FVec Ideal Cert.ReferenceIdeal.S32x8 .f32) (x6 : FVec Ideal Cert.ReferenceIdeal.S32 .f32)
    (x7 : FVec Ideal Cert.ReferenceIdeal.S1024x32 .f32) (x8 : FVec Ideal Cert.ReferenceIdeal.S1024 .f32)
    (x9 : FVec Ideal Cert.ReferenceIdeal.S1024x256 .f32) (x10 : FVec Ideal Cert.ReferenceIdeal.S1024 .f32)
    (x11 : FVec Ideal Cert.ReferenceIdeal.S32x256 .f32) (x12 : FVec Ideal Cert.ReferenceIdeal.S32 .f32) :
    Ref.refOut x0 x1 x2 x3 x4 x5 x6 x7 x8 x9 x10 x11 x12
      = KerRun.tailK x4 (fun i =>
          rowOut (fun r l => KerPrefix.neigh x0 x1 (ix2 r l)) (fun r k => x2 (ix2 r k)) (fun r k => x3 (ix2 r k))
            (fun k l => x5 (ix2 k l)) (fun k => x6 (ix1 k)) (fun n k => x7 (ix2 n k)) (fun n => x8 (ix1 n))
            (fun n k => x9 (ix2 n k)) (fun n => x10 (ix1 n)) (fun q k => x11 (ix2 q k)) (fun q => x12 (ix1 q))
            (i 0) (i 1)) := by
  unfold Ref.refOut
  rw [tail_eq]
  refine congrArg (KerRun.tailK x4) (funext fun i => ?_)
  obtain ⟨r, q, rfl⟩ : ∃ (r : Fin 100000) (q : Fin 32), i = ix2 r q := ⟨i 0, i 1, eq_ix2 i⟩
  rw [Ref.ref_rowOut, neigh_eq]

end Cert.Lstm.Bridge

end
-- ==== Proof.lean ====
/-
  The certificate: the kernel `forward` (a row-tiled LSTM cell step with an embedding in front and a read-out behind,
  50 blocks of 2000 rows) against its plain jnp reference, over the extended reals.

  frame_Kernel, frame_KernelIdeal — the generated frame certificates of the two printed kernels.
  frame_ReferenceIdeal — the plain program's run (RefRun.lean), its result dropped.
  preserves_Kernel_KernelIdeal — the idealization rewrote nothing, so there is nothing to restate.
  algebraic_KernelIdeal_ReferenceIdeal — at the exact instance both programs end with the same array: both build
    the neighbour features by the same host lines and end with the same choice between zeros and the read-out, and
    in between entry (r, q) of the kernel's result array (KerArray.lean: block by block over the grid) and of the
    plain program's read-out (RefCell.lean) is the LSTM step of row r at q (Cell.lean).  The two differ only in how
    the gate sum is grouped, which commutativity and associativity of the extended reals' addition settle; no
    finiteness of the inputs is used.
-/
import proofs.«116967_j63410897158187_2_alg».proof.Defs
import proofs.«116967_j63410897158187_2_alg».proof.Proof.Gen.Kernel
import proofs.«116967_j63410897158187_2_alg».proof.Proof.Gen.Kernel.Skeleton
import proofs.«116967_j63410897158187_2_alg».proof.Proof.Gen.Kernel.Launch
import proofs.«116967_j63410897158187_2_alg».proof.Proof.Gen.Kernel.Points
import proofs.«116967_j63410897158187_2_alg».proof.Proof.Gen.Kernel.Frame
import proofs.«116967_j63410897158187_2_alg».proof.Proof.Gen.KernelIdeal
import proofs.«116967_j63410897158187_2_alg».proof.Proof.Gen.KernelIdeal.Skeleton
import proofs.«116967_j63410897158187_2_alg».proof.Proof.Gen.KernelIdeal.Launch
import proofs.«116967_j63410897158187_2_alg».proof.Proof.Gen.KernelIdeal.Points
import proofs.«116967_j63410897158187_2_alg».proof.Proof.Gen.KernelIdeal.Frame
import proofs.«116967_j63410897158187_2_alg».proof.Proof.Gen.ReferenceIdeal
import proofs.«116967_j63410897158187_2_alg».proof.Proof.Gen.Pre_finite_inputs
import proofs.«116967_j63410897158187_2_alg».proof.Proof.Bridge
import Idealize.ShloMosaic.Adequacy
import Idealize.ShloMosaic.Init

noncomputable section

namespace Cert.Proof

open Idealize.ShloMosaic Idealize.SL.Sem Cert.Lstm

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Ref.run m ρ)

/-- Both programs end with the final choice applied to the mask and to the row-by-row LSTM step of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => KerRun.tailK (KerRun.a4 m c) (KerArr.G m c), KerRun.run m ρ, ?_⟩
  refine (θ_run Cert.ReferenceIdeal.defs _ _).mono (fun _ h c => ⟨(h c).1.trans ?_, (h c).2⟩) (Ref.run m' ρ')
  obtain ⟨h0, h1, h2, h3, h4, h5, h6, h7, h8, h9, h10, h11, h12⟩ := hagree c
  rw [h0, h1, h2, h3, h4, h5, h6, h7, h8, h9, h10, h11, h12]
  exact Bridge.refOut_eq _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
